-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S512x512 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part3 {F : FTy → Type} [FloatOps F] (main_v47 : IVec S_ 1) (main_v49 : IVec S512 1) (main_c_19 : IVec S_ 1) : IVec S_ 1 :=
  let main_v50 : IVec S_ 1 := (fun x v => Host.reduce IntOp.andi x v reducesTo_S512_S_d0 h_S_) main_v49 main_c_19
  let main_v51 : IVec S_ 1 := andi main_v47 main_v50
  main_v51

def fn_part2 {F : FTy → Type} [FloatOps F] (main_arg2 : FVec F S1024 .f32) (main_arg4 : FVec F S512 .f32) (main_arg7 : FVec F S512x2048 .f32) (main_arg8 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_cst_16 : FVec F S_ .f32 := constant S_ .f32 0x00000000#32
  let main_v44 : FVec F S1024 .f32 := broadcastInDim S1024 ![] bcast_S_S1024 main_cst_16
  let main_v45 : IVec S1024 1 := cmpf .une main_arg2 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v43 main_v46
  let main_cst_18 : FVec F S_ .f32 := constant S_ .f32 0x00000000#32
  let main_v48 : FVec F S512 .f32 := broadcastInDim S512 ![] bcast_S_S512 main_cst_18
  let main_v49 : IVec S512 1 := cmpf .une main_arg4 main_v48
  let main_c_19 : IVec S_ 1 := constantI S_ 1 1#1
  fn_part3 (F := F) main_v47 main_v49 main_c_19

def fn_part1 {F : FTy → Type} [FloatOps F] (main_arg2 : FVec F S1024 .f32) (main_arg4 : FVec F S512 .f32) (main_arg5 : FVec F S2048x512 .f32) (main_arg6 : FVec F S2048 .f32) (main_arg7 : FVec F S512x2048 .f32) (main_arg8 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg2 main_arg4 main_arg7 main_arg8 main_v33

def fn {F : FTy → Type} [FloatOps F] (main_arg0 : FVec F S8192x512 .f32) (main_arg1 : FVec F S1024x512 .f32) (main_arg2 : FVec F S1024 .f32) (main_arg3 : FVec F S512x1024 .f32) (main_arg4 : FVec F S512 .f32) (main_arg5 : FVec F S2048x512 .f32) (main_arg6 : FVec F S2048 .f32) (main_arg7 : FVec F S512x2048 .f32) (main_arg8 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg2 main_arg4 main_arg5 main_arg6 main_arg7 main_arg8 main_v13 main_v16
-- ==== Kernel.lean ====
abbrev S8192x512 : Shape := ⟨2, ![8192, 512]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S1x1024 : Shape := ⟨2, ![1, 1024]⟩
abbrev S1x512 : Shape := ⟨2, ![1, 512]⟩
abbrev S1x2048 : Shape := ⟨2, ![1, 2048]⟩
abbrev S512x512 : Shape := ⟨2, ![512, 512]⟩
abbrev S512x1 : Shape := ⟨2, ![512, 1]⟩

abbrev nBuf : Space → Nat
  | .hbm => 39
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S1024x512, .bf16⟩
  | .hbm, ⟨13, _⟩ => ⟨S512x2048, .f32⟩
  | .hbm, ⟨14, _⟩ => ⟨S512x2048, .bf16⟩
  | .hbm, ⟨15, _⟩ => ⟨S2048x512, .f32⟩
  | .hbm, ⟨16, _⟩ => ⟨S2048x512, .bf16⟩
  | .hbm, ⟨17, _⟩ => ⟨S1024x512, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S512x1024, .f32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S1x2048, .f32⟩
  | .hbm, ⟨36, _⟩ => ⟨S1x512, .f32⟩
  | .hbm, ⟨37, _⟩ => ⟨S8192x512, .f32⟩
  | .hbm, ⟨38, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S1x2048, .f32⟩
  | .local _ .vmem, ⟨10, _⟩ => ⟨S2048x512, .bf16⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x512_S512x1024_1_0 : S1024x512.Transposes [1, 0] S512x1024
  bitsLt_bf16_f32 : FTy.bits .bf16 < FTy.bits .f32
  transposes_S512x1024_S1024x512_1_0 : S512x1024.Transposes [1, 0] S1024x512
  transposes_S2048x512_S512x2048_1_0 : S2048x512.Transposes [1, 0] S512x2048
  transposes_S512x2048_S2048x512_1_0 : S512x2048.Transposes [1, 0] S2048x512
  reducesTo_S1024x512_S1024_d1 : S1024x512.ReducesTo [1] S1024
  h_S_ : 0 < S_.numel
  bcast_S1024_S1x1024_1 : S1024.BroadcastsInDim S1x1024 (![1] : Fin 1 → Fin S1x1024.rank)
  reducesTo_S512x1024_S512_d1 : S512x1024.ReducesTo [1] S512
  bcast_S512_S1x512_1 : S512.BroadcastsInDim S1x512 (![1] : Fin 1 → Fin S1x512.rank)
  bcast_S_S1024 : S_.BroadcastsInDim S1024 (![] : Fin 0 → Fin S1024.rank)
  bcast_S_S512 : S_.BroadcastsInDim S512 (![] : Fin 0 → Fin S512.rank)
  bcast_S2048_S1x2048_1 : S2048.BroadcastsInDim S1x2048 (![1] : Fin 1 → Fin S1x2048.rank)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S8192x512.size a
  hwx0_11 : ∀ i : grid0.Coords, EltTy.bits .f32 = 32 ∨ (Rect.block (s := S8192x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S8192x512.size a
  hwx0_12 : ∀ i : grid0.Coords, EltTy.bits .f32 = 32 ∨ (Rect.block (s := S8192x512) S512x512.size (cc0_transform_12 i) (hinb0_12 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v24_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩
abbrev S1x512 : Shape := ⟨2, ![1, 512]⟩
abbrev S8192x2048 : Shape := ⟨2, ![8192, 2048]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S512x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x512, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1024x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S512x1024, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S512x2048, .f32⟩
  | .hbm, ⟨62, _⟩ => ⟨S8192x2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S2048x512, .f32⟩
  | .hbm, ⟨70, _⟩ => ⟨S8192x512, .f32⟩
  | .hbm, ⟨71, _⟩ => ⟨S1x512, .f32⟩
  | .hbm, ⟨72, _⟩ => ⟨S8192x512, .f32⟩
  | .hbm, ⟨73, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S1024x512_S512x1024_1_0 : S1024x512.Transposes [1, 0] S512x1024
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  reducesTo_S1024x512_S1024_d1 : S1024x512.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  transposes_S512x1024_S1024x512_1_0 : S512x1024.Transposes [1, 0] S1024x512
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  reducesTo_S512x1024_S512_d1 : S512x1024.ReducesTo [1] S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S2048x512_S512x2048_1_0 : S2048x512.Transposes [1, 0] S512x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  transposes_S512x2048_S2048x512_1_0 : S512x2048.Transposes [1, 0] S2048x512
  dot_S8192x512_S512x1024_S8192x1024_1_0_0_1_n_n_wf : DotDims.WF S8192x512 S512x1024 S8192x1024 [1] [0] [0] [1] [] []
  dot_S8192x1024_S1024x512_S8192x512_1_0_0_1_n_n_wf : DotDims.WF S8192x1024 S1024x512 S8192x512 [1] [0] [0] [1] [] []
  dot_S8192x512_S512x2048_S8192x2048_1_0_0_1_n_n_wf : DotDims.WF S8192x512 S512x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.GaussNet.lean ====
/-
  Two Gaussian layers followed by a two-layer relation head, one row at a time, on the extended reals.

  A Gaussian layer sends a row `x` to the row whose entry `j` is `exp (-(d j) / (σ j · σ j))`, where
  `d j = max (‖x‖² - 2 · ⟨x, c j⟩ + ‖c j‖²) 0` is the clamped squared distance of `x` to centre `c j`.
  It is written here in two ways.  In the QUOTIENT form the negated distance is divided by `σ j · σ j`.
  In the PRODUCT form the distance is subtracted from zero and multiplied by a reciprocal `1 / (σ j · σ j)`
  that was taken beforehand, the centres are given transposed, and each centre's squared norm is given as a
  number computed beforehand.  On the extended reals a quotient by `y` is the product with `y⁻¹` exactly when
  `y ≠ 0` (a quotient by zero is an infinity or the junk value, not a product), so the two forms are one function
  as soon as every width `σ j` is nonzero — no finiteness is needed, since `1 · y⁻¹ = y⁻¹` and `0 - d = -d`
  hold at the infinities too.  The head (`max (⟨f, w q⟩ + b q) 0`, then `⟨h, w c⟩ + b c`) is the same in both.
-/
import Idealize.ShloMosaic.PureOps.Ideal
import Idealize.ShloMosaic.PureOps.Ideal.Laws
import Idealize.ShloMosaic.Lib.ValueIdx

noncomputable section

namespace Cert.GaussNet

open Idealize.ShloMosaic Idealize.ShloMosaic.ValueIdx

/-- A matrix array as a family of rows: row `r`, entry `k`. -/
abbrev rows {a b : ℕ} (X : (⟨2, ![a, b]⟩ : Shape).Idx → EReal) : Fin a → Fin b → EReal := fun r k => X (ix2 r k)

/-- A vector array as its entries. -/
abbrev entries {a : ℕ} (X : (⟨1, ![a]⟩ : Shape).Idx → EReal) : Fin a → EReal := fun j => X (ix1 j)

/-- A one-row matrix array as that row's entries. -/
abbrev onlyRow {b : ℕ} (X : (⟨2, ![1, b]⟩ : Shape).Idx → EReal) : Fin b → EReal := fun j => X (ix2 (0 : Fin 1) j)

/-- The literal `0.0`. -/
abbrev k0 : EReal := Ideal.ofBits .f32 0x00000000#32
/-- The literal `1.0`. -/
abbrev k1 : EReal := Ideal.ofBits .f32 0x3F800000#32
/-- The literal `2.0`. -/
abbrev k2 : EReal := Ideal.ofBits .f32 0x40000000#32

/-- `1.0` denotes the real one. -/
theorem k1_eq_one : k1 = 1 := by
  simp [Ideal.ofBits, Ideal.ieee, -EReal.coe_mul]; norm_num

/-- The sum of a row's squares. -/
def sq {n : ℕ} (v : Fin n → EReal) : EReal := ∑ k, v k * v k

/-- The inner product of two rows. -/
def dot {n : ℕ} (u v : Fin n → EReal) : EReal := ∑ k, u k * v k

/-! ## The quotient form -/

/-- A Gaussian layer, quotient form: entry `j` is `exp (-(max (‖x‖² - 2⟨x, c j⟩ + ‖c j‖²) 0) / (σ j · σ j))`, each
    squared norm a sum started from the literal zero. -/
def layerQ {n m : ℕ} (x : Fin n → EReal) (c : Fin m → Fin n → EReal) (s : Fin m → EReal) (j : Fin m) : EReal :=
  Ideal.exp (Ideal.div (-(max (((k0 + sq x) - k2 * dot x (c j)) + (k0 + sq (c j))) k0)) (s j * s j))

/-- The head's hidden row: `max (⟨f, w q⟩ + b q) 0`. -/
def hiddenQ {n m : ℕ} (f : Fin n → EReal) (w : Fin m → Fin n → EReal) (b : Fin m → EReal) (q : Fin m) : EReal :=
  max (dot f (w q) + b q) k0

/-- The head's output row: `⟨h, w c⟩ + b c`. -/
def affineQ {n m : ℕ} (h : Fin n → EReal) (w : Fin m → Fin n → EReal) (b : Fin m → EReal) (c : Fin m) : EReal :=
  dot h (w c) + b c

/-! ## The product form, over numbers prepared beforehand -/

/-- A Gaussian layer, product form: `ct` the centres transposed, `csq j` the squared norm of centre `j`,
    `inv j` the reciprocal of its squared width. -/
def layerP {n m : ℕ} (x : Fin n → EReal) (ct : Fin n → Fin m → EReal) (csq inv : Fin m → EReal) (j : Fin m) : EReal :=
  Ideal.exp ((k0 - max ((sq x - k2 * ∑ k, x k * ct k j) + csq j) k0) * inv j)

/-- The hidden row over a transposed weight. -/
def hiddenP {n m : ℕ} (f : Fin n → EReal) (wt : Fin n → Fin m → EReal) (b : Fin m → EReal) (q : Fin m) : EReal :=
  max ((∑ k, f k * wt k q) + b q) k0

/-- The output row over a transposed weight. -/
def affineP {n m : ℕ} (h : Fin n → EReal) (wt : Fin n → Fin m → EReal) (b : Fin m → EReal) (c : Fin m) : EReal :=
  (∑ k, h k * wt k c) + b c

/-! ## The two forms are one function where the widths are nonzero -/

/-- Off zero, multiplying `0 - d` by the reciprocal `1 / y` is dividing `-d` by `y`. -/
theorem neg_mul_recip (d y : EReal) (hy : y ≠ 0) : (k0 - d) * Ideal.div k1 y = Ideal.div (-d) y := by
  unfold Ideal.div
  rw [if_neg hy, if_neg hy, k1_eq_one, one_mul]
  show (Ideal.ofBits .f32 0x00000000#32 - d) * y⁻¹ = -d * y⁻¹
  rw [Ideal.ofBits_zero_f32, zero_sub]

/-- A layer in product form, fed the transposed centres, their squared norms and the reciprocals of the squared
    widths, is the layer in quotient form, at every entry whose width is nonzero. -/
theorem layerP_eq_layerQ {n m : ℕ} (x : Fin n → EReal) (c : Fin m → Fin n → EReal) (s : Fin m → EReal) (j : Fin m)
    (hs : s j ≠ 0) :
    layerP x (fun k j => c j k) (fun j => k0 + sq (c j)) (fun j => Ideal.div k1 (s j * s j)) j = layerQ x c s j := by
  unfold layerP layerQ
  rw [neg_mul_recip _ _ (mul_ne_zero hs hs)]
  have e0 : (k0 : EReal) + sq x = sq x := by
    show Ideal.ofBits .f32 0x00000000#32 + sq x = sq x
    rw [Ideal.ofBits_zero_f32, zero_add]
  rw [e0]
  rfl

theorem hiddenP_eq_hiddenQ {n m : ℕ} (f : Fin n → EReal) (w : Fin m → Fin n → EReal) (b : Fin m → EReal) (q : Fin m) :
    hiddenP f (fun k q => w q k) b q = hiddenQ f w b q := rfl

theorem affineP_eq_affineQ {n m : ℕ} (h : Fin n → EReal) (w : Fin m → Fin n → EReal) (b : Fin m → EReal) (c : Fin m) :
    affineP h (fun k c => w c k) b c = affineQ h w b c := rfl

/-! ## The two results as whole arrays, and the composed law -/

/-- The feature array: at `(r, c)`, entry `c` of the second layer of the first layer of row `r` of `X`. -/
def featuresQ {B n h o : ℕ} (X : (⟨2, ![B, n]⟩ : Shape).Idx → EReal) (C1 : (⟨2, ![h, n]⟩ : Shape).Idx → EReal)
    (S1 : (⟨1, ![h]⟩ : Shape).Idx → EReal) (C2 : (⟨2, ![o, h]⟩ : Shape).Idx → EReal) (S2 : (⟨1, ![o]⟩ : Shape).Idx → EReal) :
    (⟨2, ![B, o]⟩ : Shape).Idx → EReal :=
  fun i => layerQ (layerQ (rows X (i 0)) (rows C1) (entries S1)) (rows C2) (entries S2) (i 1)

/-- The head's output array: at `(r, c)`, entry `c` of the affine image of the hidden row of row `r` of the features. -/
def enhancedQ {B n h o g : ℕ} (X : (⟨2, ![B, n]⟩ : Shape).Idx → EReal) (C1 : (⟨2, ![h, n]⟩ : Shape).Idx → EReal)
    (S1 : (⟨1, ![h]⟩ : Shape).Idx → EReal) (C2 : (⟨2, ![o, h]⟩ : Shape).Idx → EReal) (S2 : (⟨1, ![o]⟩ : Shape).Idx → EReal)
    (W1 : (⟨2, ![g, o]⟩ : Shape).Idx → EReal) (B1 : (⟨1, ![g]⟩ : Shape).Idx → EReal)
    (W2 : (⟨2, ![o, g]⟩ : Shape).Idx → EReal) (B2 : (⟨1, ![o]⟩ : Shape).Idx → EReal) :
    (⟨2, ![B, o]⟩ : Shape).Idx → EReal :=
  fun i => affineQ (hiddenQ (layerQ (layerQ (rows X (i 0)) (rows C1) (entries S1)) (rows C2) (entries S2)) (rows W1) (entries B1))
    (rows W2) (entries B2) (i 1)

/-- Two layers in product form over the prepared operands are the two layers in quotient form, where every width is
    nonzero. -/
theorem twoLayersP_eq {n h o : ℕ} (x : Fin n → EReal) (c1 : Fin h → Fin n → EReal) (s1 : Fin h → EReal)
    (c2 : Fin o → Fin h → EReal) (s2 : Fin o → EReal) (hs1 : ∀ j, s1 j ≠ 0) (hs2 : ∀ j, s2 j ≠ 0) :
    layerP (layerP x (fun k j => c1 j k) (fun j => k0 + sq (c1 j)) (fun j => Ideal.div k1 (s1 j * s1 j)))
        (fun k j => c2 j k) (fun j => k0 + sq (c2 j)) (fun j => Ideal.div k1 (s2 j * s2 j))
      = layerQ (layerQ x c1 s1) c2 s2 := by
  funext c
  rw [layerP_eq_layerQ _ c2 s2 c (hs2 c)]
  exact congrArg (fun f => layerQ f c2 s2 c) (funext fun j => layerP_eq_layerQ x c1 s1 j (hs1 j))

end Cert.GaussNet

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.Blocks.lean ====
/-
  A block of rows through one Gaussian layer, and through one affine map, as the vector operations compute them,
  read at an index.

  `gaussBlock X Ct csq inv` is the vector program: square `X` and sum each row, broadcast the sums down the columns,
  subtract twice the matrix product of `X` with the transposed centres `Ct`, add the row `csq` of squared centre norms,
  clamp at zero, subtract from zero, multiply by the row `inv` of reciprocals, exponentiate.  Read at `(p, j)` it is the
  product form `layerP` of row `p` of `X`: every step is pointwise except the row sum (the sum of row `p`), the two
  broadcasts of a one-row array (its entry `j`), the broadcast of the column of sums (its entry `p`) and the matrix
  product (the sum over the contracted coordinate).  `affineBlock H Wt b` is `H · Wt + b` and reads as `affineP`.
-/
import proofs.«116285_j50946902065338_2_alg».proof.Proof.GaussNet
import proofs.«116285_j50946902065338_2_alg».proof.Proof.LibRowOps
import proofs.«116285_j50946902065338_2_alg».proof.Proof.LibColumn
import proofs.«116285_j50946902065338_2_alg».proof.Proof.LibUnitColumn
import Idealize.ShloMosaic.Lib.ValueLayout

noncomputable section

namespace Cert.GaussNet.Blocks

open Idealize.ShloMosaic Idealize.ShloMosaic.ValueIdx Cert.GaussNet

/-- What a read at an index uses of a plain `[m, k] × [k, n]` product's dimension numbers: one contracted axis of extent
    `k`; the left operand is read at (row, contracted), the right at (contracted, column). -/
structure PlainDot {m k n : ℕ} (d : DotDims ⟨2, ![m, k]⟩ ⟨2, ![k, n]⟩ ⟨2, ![m, n]⟩) : Prop where
  hr : d.contr.rank = 1
  hs : d.contr.size ⟨0, by omega⟩ = k
  hl0 : ∀ (j : (⟨2, ![m, n]⟩ : Shape).Idx) (q : d.contr.Idx), (d.lhsIdx j q 0).val = (j 0).val
  hl1 : ∀ (j : (⟨2, ![m, n]⟩ : Shape).Idx) (q : d.contr.Idx), (d.lhsIdx j q 1).val = (q ⟨0, by omega⟩).val
  hr0 : ∀ (j : (⟨2, ![m, n]⟩ : Shape).Idx) (q : d.contr.Idx), (d.rhsIdx j q 0).val = (q ⟨0, by omega⟩).val
  hr1 : ∀ (j : (⟨2, ![m, n]⟩ : Shape).Idx) (q : d.contr.Idx), (d.rhsIdx j q 1).val = (j 1).val

section
variable {a n m : ℕ}

/-- One Gaussian layer on a block of `a` rows, as vector operations. -/
def gaussBlock (X : FVec Ideal ⟨2, ![a, n]⟩ .f32) (Ct : FVec Ideal ⟨2, ![n, m]⟩ .bf16) (csq inv : FVec Ideal ⟨2, ![1, m]⟩ .f32)
    (hred : (⟨2, ![a, n]⟩ : Shape).Reduces [(1 : Fin 2)] ⟨1, ![a]⟩)
    (hcol : (⟨1, ![a]⟩ : Shape).ShapeCasts ⟨2, ![a, 1]⟩)
    (hbc : (⟨2, ![a, 1]⟩ : Shape).Broadcasts ⟨2, ![a, m]⟩)
    (hct : (⟨2, ![n, m]⟩ : Shape).ShapeCasts ⟨2, ![n, m]⟩)
    (hrow : (⟨2, ![1, m]⟩ : Shape).ShapeCasts ⟨2, ![1, m]⟩)
    (hbr : (⟨2, ![1, m]⟩ : Shape).Broadcasts ⟨2, ![a, m]⟩)
    (hlt : FTy.bits .bf16 < FTy.bits .f32)
    (d : DotDims ⟨2, ![a, n]⟩ ⟨2, ![n, m]⟩ ⟨2, ![a, m]⟩) : FVec Ideal ⟨2, ![a, m]⟩ .f32 :=
  exp (mulf (subf (broadcast ⟨2, ![a, m]⟩ (Scalar.ofBits .f32 0x00000000#32))
      (maximumf (addf (subf
            (broadcastTo ⟨2, ![a, m]⟩ (shapeCast ⟨2, ![a, 1]⟩
              (multiReduction .add [(1 : Fin 2)] ⟨1, ![a]⟩ (mulf X X) 0x00000000#32 hred (.inl rfl) rfl) hcol) hbc)
            (mulf (broadcast ⟨2, ![a, m]⟩ (Scalar.ofBits .f32 0x40000000#32))
              (matmul d none (truncf .bf16 X hlt) (shapeCast ⟨2, ![n, m]⟩ Ct hct) (constant ⟨2, ![a, m]⟩ .f32 0x00000000#32))))
          (broadcastTo ⟨2, ![a, m]⟩ (shapeCast ⟨2, ![1, m]⟩ csq hrow) hbr))
        (broadcast ⟨2, ![a, m]⟩ (Scalar.ofBits .f32 0x00000000#32))))
    (broadcastTo ⟨2, ![a, m]⟩ (shapeCast ⟨2, ![1, m]⟩ inv hrow) hbr))

/-- The block's layer, read at `(p, j)`, is the product form of row `p`. -/
theorem gaussBlock_apply (X : FVec Ideal ⟨2, ![a, n]⟩ .f32) (Ct : FVec Ideal ⟨2, ![n, m]⟩ .bf16) (csq inv : FVec Ideal ⟨2, ![1, m]⟩ .f32)
    (hred : (⟨2, ![a, n]⟩ : Shape).Reduces [(1 : Fin 2)] ⟨1, ![a]⟩)
    (hcol : (⟨1, ![a]⟩ : Shape).ShapeCasts ⟨2, ![a, 1]⟩)
    (hbc : (⟨2, ![a, 1]⟩ : Shape).Broadcasts ⟨2, ![a, m]⟩)
    (hct : (⟨2, ![n, m]⟩ : Shape).ShapeCasts ⟨2, ![n, m]⟩)
    (hrow : (⟨2, ![1, m]⟩ : Shape).ShapeCasts ⟨2, ![1, m]⟩)
    (hbr : (⟨2, ![1, m]⟩ : Shape).Broadcasts ⟨2, ![a, m]⟩)
    (hlt : FTy.bits .bf16 < FTy.bits .f32)
    (d : DotDims ⟨2, ![a, n]⟩ ⟨2, ![n, m]⟩ ⟨2, ![a, m]⟩) (hd : PlainDot d) (p : Fin a) (j : Fin m) :
    gaussBlock X Ct csq inv hred hcol hbc hct hrow hbr hlt d (ix2 p j)
      = layerP (rows X p) (rows Ct) (onlyRow csq) (onlyRow inv) j := by
  have e1 : broadcastTo ⟨2, ![a, m]⟩ (shapeCast ⟨2, ![a, 1]⟩
      (multiReduction .add [(1 : Fin 2)] ⟨1, ![a]⟩ (mulf X X) 0x00000000#32 hred (.inl rfl) rfl) hcol) hbc (ix2 p j)
      = sq (rows X p) :=
    (Cert.LibColumn.broadcastTo_a1_ab_apply _ hbc p j).trans
      ((Cert.LibUnitColumn.shapeCast_a_a1_apply _ hcol p (0 : Fin 1)).trans
        (Cert.LibRowOps.rowSum_apply (mulf X X) hred (.inl rfl) rfl p))
  have e2 : matmul d none (truncf .bf16 X hlt) (shapeCast ⟨2, ![n, m]⟩ Ct hct) (constant ⟨2, ![a, m]⟩ .f32 0x00000000#32) (ix2 p j)
      = ∑ k : Fin n, rows X p k * rows Ct k j := by
    rw [shapeCast_self]
    exact Cert.LibRowOps.matmul_zero_apply d none (truncf .bf16 X hlt) Ct hd.hr hd.hs hd.hl0 hd.hl1 hd.hr0 hd.hr1 p j
  have e3 : broadcastTo ⟨2, ![a, m]⟩ (shapeCast ⟨2, ![1, m]⟩ csq hrow) hbr (ix2 p j) = onlyRow csq j := by
    rw [shapeCast_self]; exact broadcastTo_1b_ab_apply csq hbr p j
  have e4 : broadcastTo ⟨2, ![a, m]⟩ (shapeCast ⟨2, ![1, m]⟩ inv hrow) hbr (ix2 p j) = onlyRow inv j := by
    rw [shapeCast_self]; exact broadcastTo_1b_ab_apply inv hbr p j
  unfold gaussBlock layerP
  show FloatOps.exp (FloatOps.mulf (FloatOps.subf _ (FloatOps.maximumf (FloatOps.addf (FloatOps.subf
    (broadcastTo ⟨2, ![a, m]⟩ (shapeCast ⟨2, ![a, 1]⟩
      (multiReduction .add [(1 : Fin 2)] ⟨1, ![a]⟩ (mulf X X) 0x00000000#32 hred (.inl rfl) rfl) hcol) hbc (ix2 p j))
    (FloatOps.mulf _ (matmul d none (truncf .bf16 X hlt) (shapeCast ⟨2, ![n, m]⟩ Ct hct) (constant ⟨2, ![a, m]⟩ .f32 0x00000000#32) (ix2 p j))))
    (broadcastTo ⟨2, ![a, m]⟩ (shapeCast ⟨2, ![1, m]⟩ csq hrow) hbr (ix2 p j))) _))
    (broadcastTo ⟨2, ![a, m]⟩ (shapeCast ⟨2, ![1, m]⟩ inv hrow) hbr (ix2 p j))) = _
  rw [e1, e2, e3, e4]
  rfl

/-- An affine map on a block of rows, as vector operations: the product with the transposed weight, plus the bias row. -/
def affineBlock (H : FVec Ideal ⟨2, ![a, n]⟩ .f32) (Wt : FVec Ideal ⟨2, ![n, m]⟩ .bf16) (b : FVec Ideal ⟨2, ![1, m]⟩ .f32)
    (hwt : (⟨2, ![n, m]⟩ : Shape).ShapeCasts ⟨2, ![n, m]⟩)
    (hrow : (⟨2, ![1, m]⟩ : Shape).ShapeCasts ⟨2, ![1, m]⟩)
    (hbr : (⟨2, ![1, m]⟩ : Shape).Broadcasts ⟨2, ![a, m]⟩)
    (hlt : FTy.bits .bf16 < FTy.bits .f32)
    (d : DotDims ⟨2, ![a, n]⟩ ⟨2, ![n, m]⟩ ⟨2, ![a, m]⟩) : FVec Ideal ⟨2, ![a, m]⟩ .f32 :=
  addf (matmul d none (truncf .bf16 H hlt) (shapeCast ⟨2, ![n, m]⟩ Wt hwt) (constant ⟨2, ![a, m]⟩ .f32 0x00000000#32))
    (broadcastTo ⟨2, ![a, m]⟩ (shapeCast ⟨2, ![1, m]⟩ b hrow) hbr)

/-- The block's affine map, read at `(p, c)`, is `affineP` of row `p`. -/
theorem affineBlock_apply (H : FVec Ideal ⟨2, ![a, n]⟩ .f32) (Wt : FVec Ideal ⟨2, ![n, m]⟩ .bf16) (b : FVec Ideal ⟨2, ![1, m]⟩ .f32)
    (hwt : (⟨2, ![n, m]⟩ : Shape).ShapeCasts ⟨2, ![n, m]⟩)
    (hrow : (⟨2, ![1, m]⟩ : Shape).ShapeCasts ⟨2, ![1, m]⟩)
    (hbr : (⟨2, ![1, m]⟩ : Shape).Broadcasts ⟨2, ![a, m]⟩)
    (hlt : FTy.bits .bf16 < FTy.bits .f32)
    (d : DotDims ⟨2, ![a, n]⟩ ⟨2, ![n, m]⟩ ⟨2, ![a, m]⟩) (hd : PlainDot d) (p : Fin a) (c : Fin m) :
    affineBlock H Wt b hwt hrow hbr hlt d (ix2 p c) = affineP (rows H p) (rows Wt) (onlyRow b) c := by
  have e2 : matmul d none (truncf .bf16 H hlt) (shapeCast ⟨2, ![n, m]⟩ Wt hwt) (constant ⟨2, ![a, m]⟩ .f32 0x00000000#32) (ix2 p c)
      = ∑ k : Fin n, rows H p k * rows Wt k c := by
    rw [shapeCast_self]
    exact Cert.LibRowOps.matmul_zero_apply d none (truncf .bf16 H hlt) Wt hd.hr hd.hs hd.hl0 hd.hl1 hd.hr0 hd.hr1 p c
  have e3 : broadcastTo ⟨2, ![a, m]⟩ (shapeCast ⟨2, ![1, m]⟩ b hrow) hbr (ix2 p c) = onlyRow b c := by
    rw [shapeCast_self]; exact broadcastTo_1b_ab_apply b hbr p c
  unfold affineBlock affineP
  show FloatOps.addf
    (matmul d none (truncf .bf16 H hlt) (shapeCast ⟨2, ![n, m]⟩ Wt hwt) (constant ⟨2, ![a, m]⟩ .f32 0x00000000#32) (ix2 p c))
    (broadcastTo ⟨2, ![a, m]⟩ (shapeCast ⟨2, ![1, m]⟩ b hrow) hbr (ix2 p c)) = _
  rw [e2, e3]
  rfl

end

end Cert.GaussNet.Blocks

end
-- ==== Proof.KBody.lean ====
/-
  The kernel body's two stored values, read at an index of the block.

  The first store holds the feature block: the second Gaussian layer of the first Gaussian layer of the block of input
  rows, both in product form over the prepared operands (transposed centres, rows of squared centre norms, rows of
  reciprocals of squared widths).  The second store holds the head's output: the affine image, over the transposed
  second weight, of the clamped affine image, over the transposed first weight, of the feature block.  Each is the
  composition of the generic blocks of `Cert.GaussNet.Blocks`, definitionally, so the reads at an index are theirs.
-/
import proofs.«116285_j50946902065338_2_alg».proof.Proof.Gen.KernelIdeal
import proofs.«116285_j50946902065338_2_alg».proof.Proof.Gen.KernelIdeal.Skeleton
import proofs.«116285_j50946902065338_2_alg».proof.Proof.Blocks

noncomputable section

namespace Cert.KernelIdeal.Body

open Cert.KernelIdeal Cert.KernelIdeal.Gen Cert.GaussNet Cert.GaussNet.Blocks Idealize.ShloMosaic Idealize.ShloMosaic.ValueIdx

/-- The dimension numbers of `dot_S512x512_S512x1024_S512x1024_1_0_0_1_n_n` are those of a plain matrix product. -/
theorem plain1 : PlainDot dot_S512x512_S512x1024_S512x1024_1_0_0_1_n_n where
  hr := rfl
  hs := rfl
  hl0 := fun j q => by
    unfold DotDims.lhsIdx
    rw [dif_neg (show ¬(0 : Fin S512x512.rank) ∈ dot_S512x512_S512x1024_S512x1024_1_0_0_1_n_n.lhsBatch by decide),
      dif_pos (show (0 : Fin S512x512.rank) ∈ dot_S512x512_S512x1024_S512x1024_1_0_0_1_n_n.lhsNonContracting by decide)]
    rfl
  hl1 := fun j q => dot_S512x512_S512x1024_S512x1024_1_0_0_1_n_n.lhsIdx_val_of_single rfl j q
  hr0 := fun j q => dot_S512x512_S512x1024_S512x1024_1_0_0_1_n_n.rhsIdx_val_of_single rfl j q
  hr1 := fun j q => by
    unfold DotDims.rhsIdx
    rw [dif_neg (show ¬(1 : Fin S512x1024.rank) ∈ dot_S512x512_S512x1024_S512x1024_1_0_0_1_n_n.rhsBatch by decide),
      dif_pos (show (1 : Fin S512x1024.rank) ∈ dot_S512x512_S512x1024_S512x1024_1_0_0_1_n_n.rhsNonContracting by decide)]
    rfl

/-- The dimension numbers of `dot_S512x1024_S1024x512_S512x512_1_0_0_1_n_n` are those of a plain matrix product. -/
theorem plain2 : PlainDot dot_S512x1024_S1024x512_S512x512_1_0_0_1_n_n where
  hr := rfl
  hs := rfl
  hl0 := fun j q => by
    unfold DotDims.lhsIdx
    rw [dif_neg (show ¬(0 : Fin S512x1024.rank) ∈ dot_S512x1024_S1024x512_S512x512_1_0_0_1_n_n.lhsBatch by decide),
      dif_pos (show (0 : Fin S512x1024.rank) ∈ dot_S512x1024_S1024x512_S512x512_1_0_0_1_n_n.lhsNonContracting by decide)]
    rfl
  hl1 := fun j q => dot_S512x1024_S1024x512_S512x512_1_0_0_1_n_n.lhsIdx_val_of_single rfl j q
  hr0 := fun j q => dot_S512x1024_S1024x512_S512x512_1_0_0_1_n_n.rhsIdx_val_of_single rfl j q
  hr1 := fun j q => by
    unfold DotDims.rhsIdx
    rw [dif_neg (show ¬(1 : Fin S1024x512.rank) ∈ dot_S512x1024_S1024x512_S512x512_1_0_0_1_n_n.rhsBatch by decide),
      dif_pos (show (1 : Fin S1024x512.rank) ∈ dot_S512x1024_S1024x512_S512x512_1_0_0_1_n_n.rhsNonContracting by decide)]
    rfl

/-- The dimension numbers of `dot_S512x512_S512x2048_S512x2048_1_0_0_1_n_n` are those of a plain matrix product. -/
theorem plain3 : PlainDot dot_S512x512_S512x2048_S512x2048_1_0_0_1_n_n where
  hr := rfl
  hs := rfl
  hl0 := fun j q => by
    unfold DotDims.lhsIdx
    rw [dif_neg (show ¬(0 : Fin S512x512.rank) ∈ dot_S512x512_S512x2048_S512x2048_1_0_0_1_n_n.lhsBatch by decide),
      dif_pos (show (0 : Fin S512x512.rank) ∈ dot_S512x512_S512x2048_S512x2048_1_0_0_1_n_n.lhsNonContracting by decide)]
    rfl
  hl1 := fun j q => dot_S512x512_S512x2048_S512x2048_1_0_0_1_n_n.lhsIdx_val_of_single rfl j q
  hr0 := fun j q => dot_S512x512_S512x2048_S512x2048_1_0_0_1_n_n.rhsIdx_val_of_single rfl j q
  hr1 := fun j q => by
    unfold DotDims.rhsIdx
    rw [dif_neg (show ¬(1 : Fin S512x2048.rank) ∈ dot_S512x512_S512x2048_S512x2048_1_0_0_1_n_n.rhsBatch by decide),
      dif_pos (show (1 : Fin S512x2048.rank) ∈ dot_S512x512_S512x2048_S512x2048_1_0_0_1_n_n.rhsNonContracting by decide)]
    rfl

/-- The dimension numbers of `dot_S512x2048_S2048x512_S512x512_1_0_0_1_n_n` are those of a plain matrix product. -/
theorem plain4 : PlainDot dot_S512x2048_S2048x512_S512x512_1_0_0_1_n_n where
  hr := rfl
  hs := rfl
  hl0 := fun j q => by
    unfold DotDims.lhsIdx
    rw [dif_neg (show ¬(0 : Fin S512x2048.rank) ∈ dot_S512x2048_S2048x512_S512x512_1_0_0_1_n_n.lhsBatch by decide),
      dif_pos (show (0 : Fin S512x2048.rank) ∈ dot_S512x2048_S2048x512_S512x512_1_0_0_1_n_n.lhsNonContracting by decide)]
    rfl
  hl1 := fun j q => dot_S512x2048_S2048x512_S512x512_1_0_0_1_n_n.lhsIdx_val_of_single rfl j q
  hr0 := fun j q => dot_S512x2048_S2048x512_S512x512_1_0_0_1_n_n.rhsIdx_val_of_single rfl j q
  hr1 := fun j q => by
    unfold DotDims.rhsIdx
    rw [dif_neg (show ¬(1 : Fin S2048x512.rank) ∈ dot_S512x2048_S2048x512_S512x512_1_0_0_1_n_n.rhsBatch by decide),
      dif_pos (show (1 : Fin S2048x512.rank) ∈ dot_S512x2048_S2048x512_S512x512_1_0_0_1_n_n.rhsNonContracting by decide)]
    rfl

variable (P0 : FVec Ideal S512x512 .f32) (P1 : FVec Ideal S512x1024 .bf16) (P2 P3 : FVec Ideal S1x1024 .f32)
  (P4 : FVec Ideal S1024x512 .bf16) (P5 P6 : FVec Ideal S1x512 .f32) (P7 : FVec Ideal S512x2048 .bf16)
  (P8 : FVec Ideal S1x2048 .f32) (P9 : FVec Ideal S2048x512 .bf16) (P10 : FVec Ideal S1x512 .f32)

/-- The first layer's activations of the block. -/
abbrev act1 : FVec Ideal S512x1024 .f32 :=
  gaussBlock P0 P1 P2 P3 reduces_S512x512_S512 shapeCasts_S512_S512x1 broadcasts_S512x1_S512x1024
    shapeCasts_S512x1024_S512x1024 shapeCasts_S1x1024_S1x1024 broadcasts_S1x1024_S512x1024 bitsLt_bf16_f32
    dot_S512x512_S512x1024_S512x1024_1_0_0_1_n_n

/-- The feature block: the second layer of the first. -/
abbrev feat : FVec Ideal S512x512 .f32 :=
  gaussBlock (act1 P0 P1 P2 P3) P4 P5 P6 reduces_S512x1024_S512 shapeCasts_S512_S512x1 broadcasts_S512x1_S512x512
    shapeCasts_S1024x512_S1024x512 shapeCasts_S1x512_S1x512 broadcasts_S1x512_S512x512 bitsLt_bf16_f32
    dot_S512x1024_S1024x512_S512x512_1_0_0_1_n_n

/-- The head's hidden block, before the clamp. -/
abbrev pre : FVec Ideal S512x2048 .f32 :=
  affineBlock (feat P0 P1 P2 P3 P4 P5 P6) P7 P8 shapeCasts_S512x2048_S512x2048 shapeCasts_S1x2048_S1x2048
    broadcasts_S1x2048_S512x2048 bitsLt_bf16_f32 dot_S512x512_S512x2048_S512x2048_1_0_0_1_n_n

/-- The first stored value is the feature block. -/
theorem pay1_eq : k0_pay1 (k0_pay3 P0 P1 P2 P3 P4) P5 P6 = feat P0 P1 P2 P3 P4 P5 P6 := rfl

/-- The second stored value is the affine image of the clamped hidden block. -/
theorem pay2_eq : k0_pay2 (k0_pay3 P0 P1 P2 P3 P4) P5 P6 P7 P8 P9 P10
    = affineBlock (maximumf (pre P0 P1 P2 P3 P4 P5 P6 P7 P8) (broadcast S512x2048 (Scalar.ofBits .f32 0x00000000#32)))
        P9 P10 shapeCasts_S2048x512_S2048x512 shapeCasts_S1x512_S1x512 broadcasts_S1x512_S512x512 bitsLt_bf16_f32
        dot_S512x2048_S2048x512_S512x512_1_0_0_1_n_n := rfl

/-- Row `p` of the first layer's activations is the product-form layer of row `p` of the input block. -/
theorem rows_act1 (p : Fin 512) :
    rows (act1 P0 P1 P2 P3) p = layerP (rows P0 p) (rows P1) (onlyRow P2) (onlyRow P3) :=
  funext fun j => gaussBlock_apply P0 P1 P2 P3 _ _ _ _ _ _ _ _ plain1 p j

/-- Row `p` of the feature block is the second layer of the first layer of row `p` of the input block. -/
theorem rows_feat (p : Fin 512) :
    rows (feat P0 P1 P2 P3 P4 P5 P6) p
      = layerP (layerP (rows P0 p) (rows P1) (onlyRow P2) (onlyRow P3)) (rows P4) (onlyRow P5) (onlyRow P6) :=
  funext fun c => (gaussBlock_apply (act1 P0 P1 P2 P3) P4 P5 P6 _ _ _ _ _ _ _ _ plain2 p c).trans
    (congrArg (fun f => layerP f (rows P4) (onlyRow P5) (onlyRow P6) c) (rows_act1 P0 P1 P2 P3 p))

/-- The first stored value at `(p, c)`. -/
theorem pay1_apply (p c : Fin 512) :
    k0_pay1 (F := Ideal) (k0_pay3 P0 P1 P2 P3 P4) P5 P6 (ix2 p c)
      = layerP (layerP (rows P0 p) (rows P1) (onlyRow P2) (onlyRow P3)) (rows P4) (onlyRow P5) (onlyRow P6) c := by
  rw [pay1_eq]
  exact congrFun (rows_feat P0 P1 P2 P3 P4 P5 P6 p) c

/-- Row `p` of the clamped hidden block is the head's hidden row of row `p` of the feature block. -/
theorem rows_hidden (p : Fin 512) :
    rows (maximumf (pre P0 P1 P2 P3 P4 P5 P6 P7 P8) (broadcast S512x2048 (Scalar.ofBits .f32 0x00000000#32))) p
      = hiddenP (layerP (layerP (rows P0 p) (rows P1) (onlyRow P2) (onlyRow P3)) (rows P4) (onlyRow P5) (onlyRow P6))
          (rows P7) (onlyRow P8) := by
  funext q
  show max (pre P0 P1 P2 P3 P4 P5 P6 P7 P8 (ix2 p q)) k0 = _
  rw [show pre P0 P1 P2 P3 P4 P5 P6 P7 P8 (ix2 p q)
      = affineP (rows (feat P0 P1 P2 P3 P4 P5 P6) p) (rows P7) (onlyRow P8) q from
    affineBlock_apply (feat P0 P1 P2 P3 P4 P5 P6) P7 P8 _ _ _ _ _ plain3 p q, rows_feat]
  rfl

/-- The second stored value at `(p, c)`. -/
theorem pay2_apply (p c : Fin 512) :
    k0_pay2 (F := Ideal) (k0_pay3 P0 P1 P2 P3 P4) P5 P6 P7 P8 P9 P10 (ix2 p c)
      = affineP (hiddenP (layerP (layerP (rows P0 p) (rows P1) (onlyRow P2) (onlyRow P3)) (rows P4) (onlyRow P5) (onlyRow P6))
          (rows P7) (onlyRow P8)) (rows P9) (onlyRow P10) c := by
  rw [pay2_eq]
  refine (affineBlock_apply _ P9 P10 _ _ _ _ _ plain4 p c).trans ?_
  rw [rows_hidden]

/-! ## The stored values against the whole-array functions

  Stated over arbitrary blocks `Q` and arrays `A`: if the input block's row under the block index is row `i 0` of the
  input array, and the prepared blocks hold the transposed centres and weights, the centres' squared norms, the
  reciprocals of the squared widths and the biases of the arrays `A`, then the stored value at the block index is the
  whole-array function at the array index `i` over it — the two layers by the composed law (the widths nonzero). -/

section
variable (Q0 : FVec Ideal S512x512 .f32) (Q1 : FVec Ideal S512x1024 .bf16) (Q2 Q3 : FVec Ideal S1x1024 .f32)
  (Q4 : FVec Ideal S1024x512 .bf16) (Q5 Q6 : FVec Ideal S1x512 .f32) (Q7 : FVec Ideal S512x2048 .bf16)
  (Q8 : FVec Ideal S1x2048 .f32) (Q9 : FVec Ideal S2048x512 .bf16) (Q10 : FVec Ideal S1x512 .f32)
  (A0 : S8192x512.Idx → EReal) (A1 : S1024x512.Idx → EReal) (A2 : S1024.Idx → EReal) (A3 : S512x1024.Idx → EReal)
  (A4 : S512.Idx → EReal) (A5 : S2048x512.Idx → EReal) (A6 : S2048.Idx → EReal) (A7 : S512x2048.Idx → EReal)
  (A8 : S512.Idx → EReal)

/-- The two layers of the block's row, over the prepared blocks, are the two quotient-form layers of the array's row. -/
theorem rows_twoLayers (p : Fin 512) (r : Fin 8192)
    (h0 : ∀ k : Fin 512, Q0 (ix2 p k) = A0 (ix2 r k))
    (h1 : ∀ (k : Fin 512) (j : Fin 1024), Q1 (ix2 k j) = A1 (ix2 j k))
    (h2 : ∀ j : Fin 1024, Q2 (ix2 (0 : Fin 1) j) = k0 + GaussNet.sq (rows A1 j))
    (h3 : ∀ j : Fin 1024, Q3 (ix2 (0 : Fin 1) j) = Ideal.div k1 (entries A2 j * entries A2 j))
    (h4 : ∀ (j : Fin 1024) (x : Fin 512), Q4 (ix2 j x) = A3 (ix2 x j))
    (h5 : ∀ x : Fin 512, Q5 (ix2 (0 : Fin 1) x) = k0 + GaussNet.sq (rows A3 x))
    (h6 : ∀ x : Fin 512, Q6 (ix2 (0 : Fin 1) x) = Ideal.div k1 (entries A4 x * entries A4 x))
    (hs1 : ∀ j : Fin 1024, entries A2 j ≠ 0) (hs2 : ∀ x : Fin 512, entries A4 x ≠ 0) :
    layerP (layerP (rows Q0 p) (rows Q1) (onlyRow Q2) (onlyRow Q3)) (rows Q4) (onlyRow Q5) (onlyRow Q6)
      = layerQ (layerQ (rows A0 r) (rows A1) (entries A2)) (rows A3) (entries A4) := by
  have e0 : rows Q0 p = rows A0 r := funext h0
  have e1 : rows Q1 = fun k j => rows A1 j k := funext fun k => funext fun j => h1 k j
  have e2 : onlyRow Q2 = fun j => k0 + GaussNet.sq (rows A1 j) := funext h2
  have e3 : onlyRow Q3 = fun j => Ideal.div k1 (entries A2 j * entries A2 j) := funext h3
  have e4 : rows Q4 = fun j x => rows A3 x j := funext fun j => funext fun x => h4 j x
  have e5 : onlyRow Q5 = fun x => k0 + GaussNet.sq (rows A3 x) := funext h5
  have e6 : onlyRow Q6 = fun x => Ideal.div k1 (entries A4 x * entries A4 x) := funext h6
  rw [e0, e1, e2, e3, e4, e5, e6]
  exact twoLayersP_eq (rows A0 r) (rows A1) (entries A2) (rows A3) (entries A4) hs1 hs2

/-- The first stored value at block index `y` is the feature array at the array index `i` over it. -/
theorem features_at (y : S512x512.Idx) (i : S8192x512.Idx) (hi : (i 1).val = (y 1).val)
    (h0 : ∀ k : Fin 512, Q0 (ix2 (y 0) k) = A0 (ix2 (i 0) k))
    (h1 : ∀ (k : Fin 512) (j : Fin 1024), Q1 (ix2 k j) = A1 (ix2 j k))
    (h2 : ∀ j : Fin 1024, Q2 (ix2 (0 : Fin 1) j) = k0 + GaussNet.sq (rows A1 j))
    (h3 : ∀ j : Fin 1024, Q3 (ix2 (0 : Fin 1) j) = Ideal.div k1 (entries A2 j * entries A2 j))
    (h4 : ∀ (j : Fin 1024) (x : Fin 512), Q4 (ix2 j x) = A3 (ix2 x j))
    (h5 : ∀ x : Fin 512, Q5 (ix2 (0 : Fin 1) x) = k0 + GaussNet.sq (rows A3 x))
    (h6 : ∀ x : Fin 512, Q6 (ix2 (0 : Fin 1) x) = Ideal.div k1 (entries A4 x * entries A4 x))
    (hs1 : ∀ j : Fin 1024, entries A2 j ≠ 0) (hs2 : ∀ x : Fin 512, entries A4 x ≠ 0) :
    k0_pay1 (F := Ideal) (k0_pay3 Q0 Q1 Q2 Q3 Q4) Q5 Q6 y = featuresQ A0 A1 A2 A3 A4 i := by
  obtain ⟨p, q, rfl⟩ : ∃ (p : Fin 512) (q : Fin 512), y = ix2 p q := ⟨y 0, y 1, eq_ix2 y⟩
  obtain ⟨r, s, rfl⟩ : ∃ (r : Fin 8192) (s : Fin 512), i = ix2 r s := ⟨i 0, i 1, eq_ix2 i⟩
  have hsq : s = q := Fin.ext hi
  subst hsq
  refine (pay1_apply Q0 Q1 Q2 Q3 Q4 Q5 Q6 p s).trans ?_
  exact congrFun (rows_twoLayers Q0 Q1 Q2 Q3 Q4 Q5 Q6 A0 A1 A2 A3 A4 p r h0 h1 h2 h3 h4 h5 h6 hs1 hs2) s

/-- The second stored value at block index `y` is the head's output array at the array index `i` over it. -/
theorem enhanced_at (y : S512x512.Idx) (i : S8192x512.Idx) (hi : (i 1).val = (y 1).val)
    (h0 : ∀ k : Fin 512, Q0 (ix2 (y 0) k) = A0 (ix2 (i 0) k))
    (h1 : ∀ (k : Fin 512) (j : Fin 1024), Q1 (ix2 k j) = A1 (ix2 j k))
    (h2 : ∀ j : Fin 1024, Q2 (ix2 (0 : Fin 1) j) = k0 + GaussNet.sq (rows A1 j))
    (h3 : ∀ j : Fin 1024, Q3 (ix2 (0 : Fin 1) j) = Ideal.div k1 (entries A2 j * entries A2 j))
    (h4 : ∀ (j : Fin 1024) (x : Fin 512), Q4 (ix2 j x) = A3 (ix2 x j))
    (h5 : ∀ x : Fin 512, Q5 (ix2 (0 : Fin 1) x) = k0 + GaussNet.sq (rows A3 x))
    (h6 : ∀ x : Fin 512, Q6 (ix2 (0 : Fin 1) x) = Ideal.div k1 (entries A4 x * entries A4 x))
    (h7 : ∀ (x : Fin 512) (g : Fin 2048), Q7 (ix2 x g) = A5 (ix2 g x))
    (h8 : ∀ g : Fin 2048, Q8 (ix2 (0 : Fin 1) g) = A6 (ix1 g))
    (h9 : ∀ (g : Fin 2048) (x : Fin 512), Q9 (ix2 g x) = A7 (ix2 x g))
    (h10 : ∀ x : Fin 512, Q10 (ix2 (0 : Fin 1) x) = A8 (ix1 x))
    (hs1 : ∀ j : Fin 1024, entries A2 j ≠ 0) (hs2 : ∀ x : Fin 512, entries A4 x ≠ 0) :
    k0_pay2 (F := Ideal) (k0_pay3 Q0 Q1 Q2 Q3 Q4) Q5 Q6 Q7 Q8 Q9 Q10 y = enhancedQ A0 A1 A2 A3 A4 A5 A6 A7 A8 i := by
  obtain ⟨p, q, rfl⟩ : ∃ (p : Fin 512) (q : Fin 512), y = ix2 p q := ⟨y 0, y 1, eq_ix2 y⟩
  obtain ⟨r, s, rfl⟩ : ∃ (r : Fin 8192) (s : Fin 512), i = ix2 r s := ⟨i 0, i 1, eq_ix2 i⟩
  have hsq : s = q := Fin.ext hi
  subst hsq
  refine (pay2_apply Q0 Q1 Q2 Q3 Q4 Q5 Q6 Q7 Q8 Q9 Q10 p s).trans ?_
  have e7 : rows Q7 = fun x g => rows A5 g x := funext fun x => funext fun g => h7 x g
  have e8 : onlyRow Q8 = entries A6 := funext h8
  have e9 : rows Q9 = fun g x => rows A7 x g := funext fun g => funext fun x => h9 g x
  have e10 : onlyRow Q10 = entries A8 := funext h10
  rw [rows_twoLayers Q0 Q1 Q2 Q3 Q4 Q5 Q6 A0 A1 A2 A3 A4 p r h0 h1 h2 h3 h4 h5 h6 hs1 hs2, e7, e8, e9, e10]
  rfl

end

end Cert.KernelIdeal.Body

end
-- ==== Proof.KGrid.lean ====
/-
  The grid of the one launch: sixteen points, point `t` working on rows `512 t … 512 t + 511`.

  The input window and the two output windows move with the point (block row `t`, block column `0`); the ten
  prepared operands are staged whole at every point (block `(0, 0)` of an array that is one block).  So a block index
  of a prepared operand is its array index, and the output blocks tile the `8192 × 512` array: row `r` is in the block
  of the point whose block row is `r / 512`.
-/
import proofs.«116285_j50946902065338_2_alg».proof.Proof.Gen.KernelIdeal.Value
import Idealize.ShloMosaic.Lib.Pipeline.Value
import Idealize.ShloMosaic.Lib.ValueIdx

noncomputable section

namespace Cert.KernelIdeal.Grid

open Cert.KernelIdeal Cert.KernelIdeal.Gen Idealize.ShloMosaic Idealize.ShloMosaic.TcCoe Idealize.SL.Sem Idealize.ShloMosaic.ValueIdx
open Idealize.ShloMosaic.Pipeline (Dat)

/-- The zero offset of a whole-block access. -/
theorem hz : (![0, 0] : Fin 2 → Nat) = fun _ => 0 := funext fun a => by fin_cases a <;> rfl

/-- The moving windows' index maps, decided over the sixteen points: block row the point's number, block column zero. -/
theorem idx_moving : ∀ t : Fin cfg0.N,
    win0_0.index t (0 : Fin 2) = win0_11.index t (0 : Fin 2) ∧ win0_0.index t (1 : Fin 2) = 0
    ∧ win0_0.index t (0 : Fin 2) = win0_12.index t (0 : Fin 2)
    ∧ win0_11.index t (1 : Fin 2) = 0 ∧ win0_12.index t (1 : Fin 2) = 0 :=
  (by decide +kernel : ∀ t : Fin grid0.N, _)

/-- The prepared operands' index maps, decided over the sixteen points: always block `(0, 0)`. -/
theorem idx_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Window 1 stages its whole array at every point: a block index is the array index. -/
theorem emb1 (t : Fin cfg0.N) (y : S512x1024.Idx) : ((cfg0.win 1).blk t).view.emb y = y := by
  have e := (idx_resident t).1
  funext a; apply Fin.ext
  match a with
  | ⟨0, _⟩ => show win0_1.index t (0 : Fin 2) * 512 + 1 * (y 0).val = (y 0).val; rw [e.1]; omega
  | ⟨1, _⟩ => show win0_1.index t (1 : Fin 2) * 1024 + 1 * (y 1).val = (y 1).val; rw [e.2]; omega

/-- Window 2 stages its whole array at every point: a block index is the array index. -/
theorem emb2 (t : Fin cfg0.N) (y : S1x1024.Idx) : ((cfg0.win 2).blk t).view.emb y = y := by
  have e := (idx_resident t).2.1
  funext a; apply Fin.ext
  match a with
  | ⟨0, _⟩ => show win0_2.index t (0 : Fin 2) * 1 + 1 * (y 0).val = (y 0).val; rw [e.1]; omega
  | ⟨1, _⟩ => show win0_2.index t (1 : Fin 2) * 1024 + 1 * (y 1).val = (y 1).val; rw [e.2]; omega

/-- Window 3 stages its whole array at every point: a block index is the array index. -/
theorem emb3 (t : Fin cfg0.N) (y : S1x1024.Idx) : ((cfg0.win 3).blk t).view.emb y = y := by
  have e := (idx_resident t).2.2.1
  funext a; apply Fin.ext
  match a with
  | ⟨0, _⟩ => show win0_3.index t (0 : Fin 2) * 1 + 1 * (y 0).val = (y 0).val; rw [e.1]; omega
  | ⟨1, _⟩ => show win0_3.index t (1 : Fin 2) * 1024 + 1 * (y 1).val = (y 1).val; rw [e.2]; omega

/-- Window 4 stages its whole array at every point: a block index is the array index. -/
theorem emb4 (t : Fin cfg0.N) (y : S1024x512.Idx) : ((cfg0.win 4).blk t).view.emb y = y := by
  have e := (idx_resident t).2.2.2.1
  funext a; apply Fin.ext
  match a with
  | ⟨0, _⟩ => show win0_4.index t (0 : Fin 2) * 1024 + 1 * (y 0).val = (y 0).val; rw [e.1]; omega
  | ⟨1, _⟩ => show win0_4.index t (1 : Fin 2) * 512 + 1 * (y 1).val = (y 1).val; rw [e.2]; omega

/-- Window 5 stages its whole array at every point: a block index is the array index. -/
theorem emb5 (t : Fin cfg0.N) (y : S1x512.Idx) : ((cfg0.win 5).blk t).view.emb y = y := by
  have e := (idx_resident t).2.2.2.2.1
  funext a; apply Fin.ext
  match a with
  | ⟨0, _⟩ => show win0_5.index t (0 : Fin 2) * 1 + 1 * (y 0).val = (y 0).val; rw [e.1]; omega
  | ⟨1, _⟩ => show win0_5.index t (1 : Fin 2) * 512 + 1 * (y 1).val = (y 1).val; rw [e.2]; omega

/-- Window 6 stages its whole array at every point: a block index is the array index. -/
theorem emb6 (t : Fin cfg0.N) (y : S1x512.Idx) : ((cfg0.win 6).blk t).view.emb y = y := by
  have e := (idx_resident t).2.2.2.2.2.1
  funext a; apply Fin.ext
  match a with
  | ⟨0, _⟩ => show win0_6.index t (0 : Fin 2) * 1 + 1 * (y 0).val = (y 0).val; rw [e.1]; omega
  | ⟨1, _⟩ => show win0_6.index t (1 : Fin 2) * 512 + 1 * (y 1).val = (y 1).val; rw [e.2]; omega

/-- Window 7 stages its whole array at every point: a block index is the array index. -/
theorem emb7 (t : Fin cfg0.N) (y : S512x2048.Idx) : ((cfg0.win 7).blk t).view.emb y = y := by
  have e := (idx_resident t).2.2.2.2.2.2.1
  funext a; apply Fin.ext
  match a with
  | ⟨0, _⟩ => show win0_7.index t (0 : Fin 2) * 512 + 1 * (y 0).val = (y 0).val; rw [e.1]; omega
  | ⟨1, _⟩ => show win0_7.index t (1 : Fin 2) * 2048 + 1 * (y 1).val = (y 1).val; rw [e.2]; omega

/-- Window 8 stages its whole array at every point: a block index is the array index. -/
theorem emb8 (t : Fin cfg0.N) (y : S1x2048.Idx) : ((cfg0.win 8).blk t).view.emb y = y := by
  have e := (idx_resident t).2.2.2.2.2.2.2.1
  funext a; apply Fin.ext
  match a with
  | ⟨0, _⟩ => show win0_8.index t (0 : Fin 2) * 1 + 1 * (y 0).val = (y 0).val; rw [e.1]; omega
  | ⟨1, _⟩ => show win0_8.index t (1 : Fin 2) * 2048 + 1 * (y 1).val = (y 1).val; rw [e.2]; omega

/-- Window 9 stages its whole array at every point: a block index is the array index. -/
theorem emb9 (t : Fin cfg0.N) (y : S2048x512.Idx) : ((cfg0.win 9).blk t).view.emb y = y := by
  have e := (idx_resident t).2.2.2.2.2.2.2.2.1
  funext a; apply Fin.ext
  match a with
  | ⟨0, _⟩ => show win0_9.index t (0 : Fin 2) * 2048 + 1 * (y 0).val = (y 0).val; rw [e.1]; omega
  | ⟨1, _⟩ => show win0_9.index t (1 : Fin 2) * 512 + 1 * (y 1).val = (y 1).val; rw [e.2]; omega

/-- Window 10 stages its whole array at every point: a block index is the array index. -/
theorem emb10 (t : Fin cfg0.N) (y : S1x512.Idx) : ((cfg0.win 10).blk t).view.emb y = y := by
  have e := (idx_resident t).2.2.2.2.2.2.2.2.2
  funext a; apply Fin.ext
  match a with
  | ⟨0, _⟩ => show win0_10.index t (0 : Fin 2) * 1 + 1 * (y 0).val = (y 0).val; rw [e.1]; omega
  | ⟨1, _⟩ => show win0_10.index t (1 : Fin 2) * 512 + 1 * (y 1).val = (y 1).val; rw [e.2]; omega

/-- An index of the array is in point `t`'s block of output window 11 iff each coordinate is in the block's range. -/
theorem mem_blk11 (t : Fin cfg0.N) (i : S8192x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v24_0).slice (win0_11.rect t)).set ↔ _
  rw [View.set_slice_whole, Rect.mem_set_unit]
  exact Iff.rfl

/-- Every block row of the array is some point's. -/
theorem idx_onto11 : ∀ q0 : Fin 16, ∃ t : Fin cfg0.N, win0_11.index t = ![q0.val, 0] :=
  (by decide +kernel : ∀ q0 : Fin 16, ∃ t : Fin grid0.N, win0_11.index t = ![q0.val, 0])

/-- The blocks of output window 11 cover the array: row `r` lies in the block of the point with block row `r / 512`. -/
theorem cover11 (i : S8192x512.Idx) :
    ∃ t : Fin cfg0.N, (cfg0.win 11).flush t = true ∧ i ∈ ((cfg0.win 11).blk t).view.set := by
  have hi0 : (i 0).val < 8192 := (i 0).isLt
  have hi1 : (i 1).val < 512 := (i 1).isLt
  obtain ⟨t, ht⟩ := idx_onto11 ⟨(i 0).val / 512, by omega⟩
  have q0 : win0_11.index t (0 : Fin 2) = (i 0).val / 512 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-- An index of the array is in point `t`'s block of output window 12 iff each coordinate is in the block's range. -/
theorem mem_blk12 (t : Fin cfg0.N) (i : S8192x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v24_1).slice (win0_12.rect t)).set ↔ _
  rw [View.set_slice_whole, Rect.mem_set_unit]
  exact Iff.rfl

/-- Every block row of the array is some point's. -/
theorem idx_onto12 : ∀ q0 : Fin 16, ∃ t : Fin cfg0.N, win0_12.index t = ![q0.val, 0] :=
  (by decide +kernel : ∀ q0 : Fin 16, ∃ t : Fin grid0.N, win0_12.index t = ![q0.val, 0])

/-- The blocks of output window 12 cover the array: row `r` lies in the block of the point with block row `r / 512`. -/
theorem cover12 (i : S8192x512.Idx) :
    ∃ t : Fin cfg0.N, (cfg0.win 12).flush t = true ∧ i ∈ ((cfg0.win 12).blk t).view.set := by
  have hi0 : (i 0).val < 8192 := (i 0).isLt
  have hi1 : (i 1).val < 512 := (i 1).isLt
  obtain ⟨t, ht⟩ := idx_onto12 ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 512 ≤ (i 1).val ∧ (i 1).val < win0_12.index t (1 : Fin 2) * 512 + 512; omega

end Cert.KernelIdeal.Grid

end
-- ==== Proof.KHost.lean ====
/-
  The arrays the kernel program's host operations prepare before its one call, read at an index: the transposed
  centres and weights (stored in the narrower format, which on the extended reals changes nothing), each centre's
  squared norm as a sum started from the literal zero, the reciprocal of each squared width, and the two bias rows.
-/
import proofs.«116285_j50946902065338_2_alg».proof.Proof.Gen.KernelIdeal.Frame
import proofs.«116285_j50946902065338_2_alg».proof.Proof.GaussNet
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

namespace Cert.KernelIdeal.Host

open Cert.KernelIdeal Cert.KernelIdeal.Gen Cert.GaussNet
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD)

set_option quotPrecheck false in
local notation "A1" => (m ((c : Thread nD τ).loc main_arg1) : S1024x512.Idx → EReal)
set_option quotPrecheck false in
local notation "A2" => (m ((c : Thread nD τ).loc main_arg2) : S1024.Idx → EReal)
set_option quotPrecheck false in
local notation "A3" => (m ((c : Thread nD τ).loc main_arg3) : S512x1024.Idx → EReal)
set_option quotPrecheck false in
local notation "A4" => (m ((c : Thread nD τ).loc main_arg4) : S512.Idx → EReal)
set_option quotPrecheck false in
local notation "A5" => (m ((c : Thread nD τ).loc main_arg5) : S2048x512.Idx → EReal)
set_option quotPrecheck false in
local notation "A6" => (m ((c : Thread nD τ).loc main_arg6) : S2048.Idx → EReal)
set_option quotPrecheck false in
local notation "A7" => (m ((c : Thread nD τ).loc main_arg7) : S512x2048.Idx → EReal)
set_option quotPrecheck false in
local notation "A8" => (m ((c : Thread nD τ).loc main_arg8) : S512.Idx → EReal)

/-- The first layer's centres, transposed. -/
theorem c1t_apply (k : Fin 512) (j : Fin 1024) :
    (V m c main_v1 : S512x1024.Idx → EReal) (ix2 k j) = A1 (ix2 j k) := by
  have e : (V m c main_v1 : S512x1024.Idx → EReal)
      = truncf (F := Ideal) .bf16 (transpose S512x1024 [1, 0] A1 transposes_S1024x512_S512x1024_1_0) bitsLt_bf16_f32 := by
    dsimp only [Gen.V, Gen.hostOps0]; after_results <;> rfl
  rw [e]
  exact transpose_ix2_apply _ _ k j

/-- The squared norm of each first-layer centre, a sum started from the literal zero. -/
theorem c1sq_apply (j : Fin 1024) :
    (V m c main_v10 : S1x1024.Idx → EReal) (ix2 (0 : Fin 1) j) = k0 + GaussNet.sq (rows A1 j) := by
  have e : (V m c main_v10 : S1x1024.Idx → EReal)
      = broadcastInDim S1x1024 ![1] bcast_S1024_S1x1024_1
          (Host.reduceAdd (F := Ideal) (mulf (F := Ideal) A1 A1) (constant (F := Ideal) S_ .f32 0x00000000#32)
            reducesTo_S1024x512_S1024_d1 h_S_) := by
    dsimp only [Gen.V, Gen.hostOps0]; after_results <;> rfl
  rw [e, broadcastInDim_apply _ bcast_S1024_S1x1024_1 _ (ix2 (0 : Fin 1) j) (ix1 j) (fun a => match a with | ⟨0, _⟩ => by show j.val = if (1024 : Nat) = 1 then 0 else j.val; rw [if_neg (by decide)])]
  simp only [Host.reduceAdd, Ideal.hostReduceAdd_def]
  rw [Ideal.hostReduceAdd_single reducesTo_S1024x512_S1024_d1 (by decide)]
  refine congrArg (_ + ·) (Finset.sum_congr rfl fun k _ => ?_)
  exact congrArg (mulf (F := Ideal) A1 A1) (show _ = ix2 j k from (funext fun a => Fin.ext (by match a with | ⟨0, _⟩ => rfl | ⟨1, _⟩ => rfl)))

/-- The reciprocal of each first-layer squared width. -/
theorem inv1_apply (j : Fin 1024) :
    (V m c main_v17 : S1x1024.Idx → EReal) (ix2 (0 : Fin 1) j) = Ideal.div k1 (entries A2 j * entries A2 j) := by
  have e : (V m c main_v17 : S1x1024.Idx → EReal)
      = broadcastInDim S1x1024 ![1] bcast_S1024_S1x1024_1
          (Host.divf (F := Ideal) (broadcastInDim S1024 ![] bcast_S_S1024 (constant (F := Ideal) S_ .f32 0x3F800000#32))
            (mulf (F := Ideal) A2 A2)) := by
    dsimp only [Gen.V, Gen.hostOps0]; after_results <;> rfl
  rw [e, broadcastInDim_apply _ bcast_S1024_S1x1024_1 _ (ix2 (0 : Fin 1) j) (ix1 j) (fun a => match a with | ⟨0, _⟩ => by show j.val = if (1024 : Nat) = 1 then 0 else j.val; rw [if_neg (by decide)])]
  rfl

/-- The second layer's centres, transposed. -/
theorem c2t_apply (j : Fin 1024) (x : Fin 512) :
    (V m c main_v3 : S1024x512.Idx → EReal) (ix2 j x) = A3 (ix2 x j) := by
  have e : (V m c main_v3 : S1024x512.Idx → EReal)
      = truncf (F := Ideal) .bf16 (transpose S1024x512 [1, 0] A3 transposes_S512x1024_S1024x512_1_0) bitsLt_bf16_f32 := by
    dsimp only [Gen.V, Gen.hostOps0]; after_results <;> rfl
  rw [e]
  exact transpose_ix2_apply _ _ j x

/-- The squared norm of each second-layer centre, a sum started from the literal zero. -/
theorem c2sq_apply (x : Fin 512) :
    (V m c main_v13 : S1x512.Idx → EReal) (ix2 (0 : Fin 1) x) = k0 + GaussNet.sq (rows A3 x) := by
  have e : (V m c main_v13 : S1x512.Idx → EReal)
      = broadcastInDim S1x512 ![1] bcast_S512_S1x512_1
          (Host.reduceAdd (F := Ideal) (mulf (F := Ideal) A3 A3) (constant (F := Ideal) S_ .f32 0x00000000#32)
            reducesTo_S512x1024_S512_d1 h_S_) := by
    dsimp only [Gen.V, Gen.hostOps0]; after_results <;> rfl
  rw [e, broadcastInDim_apply _ bcast_S512_S1x512_1 _ (ix2 (0 : Fin 1) x) (ix1 x) (fun a => match a with | ⟨0, _⟩ => by show x.val = if (512 : Nat) = 1 then 0 else x.val; rw [if_neg (by decide)])]
  simp only [Host.reduceAdd, Ideal.hostReduceAdd_def]
  rw [Ideal.hostReduceAdd_single reducesTo_S512x1024_S512_d1 (by decide)]
  refine congrArg (_ + ·) (Finset.sum_congr rfl fun k _ => ?_)
  exact congrArg (mulf (F := Ideal) A3 A3) (show _ = ix2 x k from (funext fun a => Fin.ext (by match a with | ⟨0, _⟩ => rfl | ⟨1, _⟩ => rfl)))

/-- The reciprocal of each second-layer squared width. -/
theorem inv2_apply (x : Fin 512) :
    (V m c main_v21 : S1x512.Idx → EReal) (ix2 (0 : Fin 1) x) = Ideal.div k1 (entries A4 x * entries A4 x) := by
  have e : (V m c main_v21 : S1x512.Idx → EReal)
      = broadcastInDim S1x512 ![1] bcast_S512_S1x512_1
          (Host.divf (F := Ideal) (broadcastInDim S512 ![] bcast_S_S512 (constant (F := Ideal) S_ .f32 0x3F800000#32))
            (mulf (F := Ideal) A4 A4)) := by
    dsimp only [Gen.V, Gen.hostOps0]; after_results <;> rfl
  rw [e, broadcastInDim_apply _ bcast_S512_S1x512_1 _ (ix2 (0 : Fin 1) x) (ix1 x) (fun a => match a with | ⟨0, _⟩ => by show x.val = if (512 : Nat) = 1 then 0 else x.val; rw [if_neg (by decide)])]
  rfl

/-- The head's first weight, transposed. -/
theorem w1t_apply (x : Fin 512) (q : Fin 2048) :
    (V m c main_v5 : S512x2048.Idx → EReal) (ix2 x q) = A5 (ix2 q x) := by
  have e : (V m c main_v5 : S512x2048.Idx → EReal)
      = truncf (F := Ideal) .bf16 (transpose S512x2048 [1, 0] A5 transposes_S2048x512_S512x2048_1_0) bitsLt_bf16_f32 := by
    dsimp only [Gen.V, Gen.hostOps0]; after_results <;> rfl
  rw [e]
  exact transpose_ix2_apply _ _ x q

/-- The head's first bias, as a one-row matrix. -/
theorem b1_apply (q : Fin 2048) :
    (V m c main_v22 : S1x2048.Idx → EReal) (ix2 (0 : Fin 1) q) = A6 (ix1 q) := by
  have e : (V m c main_v22 : S1x2048.Idx → EReal) = broadcastInDim S1x2048 ![1] bcast_S2048_S1x2048_1 A6 := by
    dsimp only [Gen.V, Gen.hostOps0]; after_results <;> rfl
  rw [e]
  exact broadcastInDim_apply _ bcast_S2048_S1x2048_1 _ (ix2 (0 : Fin 1) q) (ix1 q) (fun a => match a with | ⟨0, _⟩ => by show q.val = if (2048 : Nat) = 1 then 0 else q.val; rw [if_neg (by decide)])

/-- The head's second weight, transposed. -/
theorem w2t_apply (q : Fin 2048) (x : Fin 512) :
    (V m c main_v7 : S2048x512.Idx → EReal) (ix2 q x) = A7 (ix2 x q) := by
  have e : (V m c main_v7 : S2048x512.Idx → EReal)
      = truncf (F := Ideal) .bf16 (transpose S2048x512 [1, 0] A7 transposes_S512x2048_S2048x512_1_0) bitsLt_bf16_f32 := by
    dsimp only [Gen.V, Gen.hostOps0]; after_results <;> rfl
  rw [e]
  exact transpose_ix2_apply _ _ q x

/-- The head's second bias, as a one-row matrix. -/
theorem b2_apply (x : Fin 512) :
    (V m c main_v23 : S1x512.Idx → EReal) (ix2 (0 : Fin 1) x) = A8 (ix1 x) := by
  have e : (V m c main_v23 : S1x512.Idx → EReal) = broadcastInDim S1x512 ![1] bcast_S512_S1x512_1 A8 := by
    dsimp only [Gen.V, Gen.hostOps0]; after_results <;> rfl
  rw [e]
  exact broadcastInDim_apply _ bcast_S512_S1x512_1 _ (ix2 (0 : Fin 1) x) (ix1 x) (fun a => match a with | ⟨0, _⟩ => by show x.val = if (512 : Nat) = 1 then 0 else x.val; rw [if_neg (by decide)])

/-! ## Which buffer each window of the call stages -/

theorem arr0 : Pipeline.arrRef spec0 0 = main_arg0 := rfl
theorem arr1 : Pipeline.arrRef spec0 1 = main_v1 := rfl
theorem arr2 : Pipeline.arrRef spec0 2 = main_v10 := rfl
theorem arr3 : Pipeline.arrRef spec0 3 = main_v17 := rfl
theorem arr4 : Pipeline.arrRef spec0 4 = main_v3 := rfl
theorem arr5 : Pipeline.arrRef spec0 5 = main_v13 := rfl
theorem arr6 : Pipeline.arrRef spec0 6 = main_v21 := rfl
theorem arr7 : Pipeline.arrRef spec0 7 = main_v5 := rfl
theorem arr8 : Pipeline.arrRef spec0 8 = main_v22 := rfl
theorem arr9 : Pipeline.arrRef spec0 9 = main_v7 := rfl
theorem arr10 : Pipeline.arrRef spec0 10 = main_v23 := rfl

end Cert.KernelIdeal.Host

end
-- ==== Proof.KBlocks.lean ====
/-
  From what each point writes back to the two whole result arrays.

  At point `t` the body's two stores leave, in the two output blocks, the feature block and the head's output block of
  the input rows `512 t … 512 t + 511`; the prepared operands it reads are, entry by entry, the transposed centres and
  weights, the centres' squared norms, the reciprocals of the squared widths and the biases of the argument arrays.
  So each output block is the block of ONE whole-array function of the nine argument arrays (the widths nonzero), and
  since the sixteen blocks tile the array, the array after the run is that function.
-/
import proofs.«116285_j50946902065338_2_alg».proof.Proof.Gen.KernelIdeal.Value
import proofs.«116285_j50946902065338_2_alg».proof.Proof.KBody
import proofs.«116285_j50946902065338_2_alg».proof.Proof.KGrid
import proofs.«116285_j50946902065338_2_alg».proof.Proof.KHost

noncomputable section

namespace Cert.KernelIdeal.Final

open Cert.KernelIdeal Cert.KernelIdeal.Gen Cert.KernelIdeal.Grid Cert.KernelIdeal.Body Cert.GaussNet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! The nine argument arrays of core `c`, as launched. -/
abbrev A0 (c : Dev nD) : S8192x512.Idx → EReal := m ((c : Thread nD τ).loc main_arg0)
abbrev A1 (c : Dev nD) : S1024x512.Idx → EReal := m ((c : Thread nD τ).loc main_arg1)
abbrev A2 (c : Dev nD) : S1024.Idx → EReal := m ((c : Thread nD τ).loc main_arg2)
abbrev A3 (c : Dev nD) : S512x1024.Idx → EReal := m ((c : Thread nD τ).loc main_arg3)
abbrev A4 (c : Dev nD) : S512.Idx → EReal := m ((c : Thread nD τ).loc main_arg4)
abbrev A5 (c : Dev nD) : S2048x512.Idx → EReal := m ((c : Thread nD τ).loc main_arg5)
abbrev A6 (c : Dev nD) : S2048.Idx → EReal := m ((c : Thread nD τ).loc main_arg6)
abbrev A7 (c : Dev nD) : S512x2048.Idx → EReal := m ((c : Thread nD τ).loc main_arg7)
abbrev A8 (c : Dev nD) : S512.Idx → EReal := m ((c : Thread nD τ).loc main_arg8)

/-! ## What each window's block holds at point `t` -/

section
variable (c : Dev nD) (t : Fin cfg0.N)

/-- The input block's row under block index `y` is the input array's row under the array index over `y` (stated
    through output window 11's block; output window 12's block sits over the same rows). -/
theorem blk0_11 (y : S512x512.Idx) (k : Fin 512) :
    iblk m c 0 t (ix2 (y 0) k) = A0 m c (ix2 ((((cfg0.win 11).blk t).view.emb y) 0) k) := by
  show V m c main_arg0 (((cfg0.win 0).blk t).view.emb (ix2 (y 0) k)) = _
  rw [V_main_arg0]
  refine congrArg (m ((c : Thread nD τ).loc main_arg0)) (funext fun a => Fin.ext ?_)
  obtain ⟨e0, e1, e2, e3, e4⟩ := idx_moving t
  match a with
  | ⟨0, _⟩ => show win0_0.index t (0 : Fin 2) * 512 + 1 * (y 0).val = win0_11.index t (0 : Fin 2) * 512 + 1 * (y 0).val; omega
  | ⟨1, _⟩ => show win0_0.index t (1 : Fin 2) * 512 + 1 * k.val = k.val; omega

theorem blk0_12 (y : S512x512.Idx) (k : Fin 512) :
    iblk m c 0 t (ix2 (y 0) k) = A0 m c (ix2 ((((cfg0.win 12).blk t).view.emb y) 0) k) := by
  show V m c main_arg0 (((cfg0.win 0).blk t).view.emb (ix2 (y 0) k)) = _
  rw [V_main_arg0]
  refine congrArg (m ((c : Thread nD τ).loc main_arg0)) (funext fun a => Fin.ext ?_)
  obtain ⟨e0, e1, e2, e3, e4⟩ := idx_moving t
  match a with
  | ⟨0, _⟩ => show win0_0.index t (0 : Fin 2) * 512 + 1 * (y 0).val = win0_12.index t (0 : Fin 2) * 512 + 1 * (y 0).val; omega
  | ⟨1, _⟩ => show win0_0.index t (1 : Fin 2) * 512 + 1 * k.val = k.val; omega

/-- The column of the array index over block index `y` is `y`'s column. -/
theorem col11 (y : S512x512.Idx) : ((((cfg0.win 11).blk t).view.emb y) 1).val = (y 1).val := by
  obtain ⟨e0, e1, e2, e3, e4⟩ := idx_moving t
  show win0_11.index t (1 : Fin 2) * 512 + 1 * (y 1).val = (y 1).val
  omega

theorem col12 (y : S512x512.Idx) : ((((cfg0.win 12).blk t).view.emb y) 1).val = (y 1).val := by
  obtain ⟨e0, e1, e2, e3, e4⟩ := idx_moving t
  show win0_12.index t (1 : Fin 2) * 512 + 1 * (y 1).val = (y 1).val
  omega

theorem blk1 (k : Fin 512) (j : Fin 1024) : iblk m c 1 t (ix2 k j) = A1 m c (ix2 j k) := by
  show V m c main_v1 (((cfg0.win 1).blk t).view.emb (ix2 k j)) = _
  exact (congrArg (V m c main_v1) (emb1 t (ix2 k j))).trans (Host.c1t_apply m c k j)

theorem blk2 (j : Fin 1024) : iblk m c 2 t (ix2 (0 : Fin 1) j) = k0 + GaussNet.sq (rows (A1 m c) j) := by
  show V m c main_v10 (((cfg0.win 2).blk t).view.emb (ix2 (0 : Fin 1) j)) = _
  exact (congrArg (V m c main_v10) (emb2 t (ix2 (0 : Fin 1) j))).trans (Host.c1sq_apply m c j)

theorem blk3 (j : Fin 1024) : iblk m c 3 t (ix2 (0 : Fin 1) j) = Ideal.div k1 (entries (A2 m c) j * entries (A2 m c) j) := by
  show V m c main_v17 (((cfg0.win 3).blk t).view.emb (ix2 (0 : Fin 1) j)) = _
  exact (congrArg (V m c main_v17) (emb3 t (ix2 (0 : Fin 1) j))).trans (Host.inv1_apply m c j)

theorem blk4 (j : Fin 1024) (x : Fin 512) : iblk m c 4 t (ix2 j x) = A3 m c (ix2 x j) := by
  show V m c main_v3 (((cfg0.win 4).blk t).view.emb (ix2 j x)) = _
  exact (congrArg (V m c main_v3) (emb4 t (ix2 j x))).trans (Host.c2t_apply m c j x)

theorem blk5 (x : Fin 512) : iblk m c 5 t (ix2 (0 : Fin 1) x) = k0 + GaussNet.sq (rows (A3 m c) x) := by
  show V m c main_v13 (((cfg0.win 5).blk t).view.emb (ix2 (0 : Fin 1) x)) = _
  exact (congrArg (V m c main_v13) (emb5 t (ix2 (0 : Fin 1) x))).trans (Host.c2sq_apply m c x)

theorem blk6 (x : Fin 512) : iblk m c 6 t (ix2 (0 : Fin 1) x) = Ideal.div k1 (entries (A4 m c) x * entries (A4 m c) x) := by
  show V m c main_v21 (((cfg0.win 6).blk t).view.emb (ix2 (0 : Fin 1) x)) = _
  exact (congrArg (V m c main_v21) (emb6 t (ix2 (0 : Fin 1) x))).trans (Host.inv2_apply m c x)

theorem blk7 (x : Fin 512) (g : Fin 2048) : iblk m c 7 t (ix2 x g) = A5 m c (ix2 g x) := by
  show V m c main_v5 (((cfg0.win 7).blk t).view.emb (ix2 x g)) = _
  exact (congrArg (V m c main_v5) (emb7 t (ix2 x g))).trans (Host.w1t_apply m c x g)

theorem blk8 (g : Fin 2048) : iblk m c 8 t (ix2 (0 : Fin 1) g) = A6 m c (ix1 g) := by
  show V m c main_v22 (((cfg0.win 8).blk t).view.emb (ix2 (0 : Fin 1) g)) = _
  exact (congrArg (V m c main_v22) (emb8 t (ix2 (0 : Fin 1) g))).trans (Host.b1_apply m c g)

theorem blk9 (g : Fin 2048) (x : Fin 512) : iblk m c 9 t (ix2 g x) = A7 m c (ix2 x g) := by
  show V m c main_v7 (((cfg0.win 9).blk t).view.emb (ix2 g x)) = _
  exact (congrArg (V m c main_v7) (emb9 t (ix2 g x))).trans (Host.w2t_apply m c g x)

theorem blk10 (x : Fin 512) : iblk m c 10 t (ix2 (0 : Fin 1) x) = A8 m c (ix1 x) := by
  show V m c main_v23 (((cfg0.win 10).blk t).view.emb (ix2 (0 : Fin 1) x)) = _
  exact (congrArg (V m c main_v23) (emb10 t (ix2 (0 : Fin 1) x))).trans (Host.b2_apply m c x)

end

/-! ## What each point writes back -/

/-- Point `t` writes back block `t` of the feature array. -/
theorem flushed11_eq (c : Dev nD) (hs1 : ∀ j : Fin 1024, entries (A2 m c) j ≠ 0) (hs2 : ∀ x : Fin 512, entries (A4 m c) x ≠ 0)
    (t : Fin cfg0.N) :
    (dats m 0 c).flushed 11 t
      = ((cfg0.win 11).blk t).view.read (Elt Ideal) (featuresQ (A0 m c) (A1 m c) (A2 m c) (A3 m c) (A4 m c)) := by
  rw [Value.flushed11]
  unfold out0_11
  rw [View.canon_unit_zero hz]
  simp only [View.ld_unit_zero (S := S512x512) hz, View.ld_unit_zero (S := S512x1024) hz, View.ld_unit_zero (S := S1x1024) hz, View.ld_unit_zero (S := S1024x512) hz, View.ld_unit_zero (S := S1x512) hz, View.ld_unit_zero (S := S512x2048) hz, View.ld_unit_zero (S := S1x2048) hz, View.ld_unit_zero (S := S2048x512) hz]
  funext y
  show k0_pay1 (F := Ideal) (k0_pay3 (iblk m c 0 t) (iblk m c 1 t) (iblk m c 2 t) (iblk m c 3 t) (iblk m c 4 t)) (iblk m c 5 t) (iblk m c 6 t) y
    = featuresQ (A0 m c) (A1 m c) (A2 m c) (A3 m c) (A4 m c) (((cfg0.win 11).blk t).view.emb y)
  exact features_at (iblk m c 0 t) (iblk m c 1 t) (iblk m c 2 t) (iblk m c 3 t) (iblk m c 4 t) (iblk m c 5 t) (iblk m c 6 t) (A0 m c) (A1 m c) (A2 m c) (A3 m c) (A4 m c)
    y (((cfg0.win 11).blk t).view.emb y) (col11 t y) (blk0_11 m c t y) (blk1 m c t) (blk2 m c t) (blk3 m c t) (blk4 m c t)
    (blk5 m c t) (blk6 m c t) hs1 hs2

/-- Point `t` writes back block `t` of the head's output array. -/
theorem flushed12_eq (c : Dev nD) (hs1 : ∀ j : Fin 1024, entries (A2 m c) j ≠ 0) (hs2 : ∀ x : Fin 512, entries (A4 m c) x ≠ 0)
    (t : Fin cfg0.N) :
    (dats m 0 c).flushed 12 t
      = ((cfg0.win 12).blk t).view.read (Elt Ideal)
          (enhancedQ (A0 m c) (A1 m c) (A2 m c) (A3 m c) (A4 m c) (A5 m c) (A6 m c) (A7 m c) (A8 m c)) := by
  rw [Value.flushed12]
  unfold out0_12
  rw [View.canon_unit_zero hz]
  simp only [View.ld_unit_zero (S := S512x512) hz, View.ld_unit_zero (S := S512x1024) hz, View.ld_unit_zero (S := S1x1024) hz, View.ld_unit_zero (S := S1024x512) hz, View.ld_unit_zero (S := S1x512) hz, View.ld_unit_zero (S := S512x2048) hz, View.ld_unit_zero (S := S1x2048) hz, View.ld_unit_zero (S := S2048x512) hz]
  funext y
  show k0_pay2 (F := Ideal) (k0_pay3 (iblk m c 0 t) (iblk m c 1 t) (iblk m c 2 t) (iblk m c 3 t) (iblk m c 4 t)) (iblk m c 5 t) (iblk m c 6 t) (iblk m c 7 t) (iblk m c 8 t)
      (iblk m c 9 t) (iblk m c 10 t) y
    = enhancedQ (A0 m c) (A1 m c) (A2 m c) (A3 m c) (A4 m c) (A5 m c) (A6 m c) (A7 m c) (A8 m c)
        (((cfg0.win 12).blk t).view.emb y)
  exact enhanced_at (iblk m c 0 t) (iblk m c 1 t) (iblk m c 2 t) (iblk m c 3 t) (iblk m c 4 t) (iblk m c 5 t) (iblk m c 6 t) (iblk m c 7 t) (iblk m c 8 t) (iblk m c 9 t) (iblk m c 10 t)
    (A0 m c) (A1 m c) (A2 m c) (A3 m c) (A4 m c) (A5 m c) (A6 m c) (A7 m c) (A8 m c)
    y (((cfg0.win 12).blk t).view.emb y) (col12 t y) (blk0_12 m c t y) (blk1 m c t) (blk2 m c t) (blk3 m c t) (blk4 m c t)
    (blk5 m c t) (blk6 m c t) (blk7 m c t) (blk8 m c t) (blk9 m c t) (blk10 m c t) hs1 hs2

/-! ## The arrays after the run -/

/-- The first result array after the run is the feature array of the arguments. -/
theorem final11 (c : Dev nD) (hs1 : ∀ j : Fin 1024, entries (A2 m c) j ≠ 0) (hs2 : ∀ x : Fin 512, entries (A4 m c) x ≠ 0) :
    (dats m 0 c).arrAt 11 cfg0.N = featuresQ (A0 m c) (A1 m c) (A2 m c) (A3 m c) (A4 m c) :=
  (dats m 0 c).arrAt_eq_of_cover 11 _ (fun t _ => flushed11_eq m c hs1 hs2 t) cover11

/-- The second result array after the run is the head's output array of the arguments. -/
theorem final12 (c : Dev nD) (hs1 : ∀ j : Fin 1024, entries (A2 m c) j ≠ 0) (hs2 : ∀ x : Fin 512, entries (A4 m c) x ≠ 0) :
    (dats m 0 c).arrAt 12 cfg0.N
      = enhancedQ (A0 m c) (A1 m c) (A2 m c) (A3 m c) (A4 m c) (A5 m c) (A6 m c) (A7 m c) (A8 m c) :=
  (dats m 0 c).arrAt_eq_of_cover 12 _ (fun t _ => flushed12_eq m c hs1 hs2 t) cover12

/-- The kernel's run with both results named: every weakly fair execution terminates with the two result arrays at the
    two whole-array functions of the arguments, the arguments unchanged — where every width is nonzero. -/
theorem run (hs : ∀ c : Dev nD, (∀ j : Fin 1024, entries (A2 m c) j ≠ 0) ∧ (∀ x : Fin 512, entries (A4 m c) x ≠ 0)) :
    θ_run defs (onTc (τ := τ) (main (F := Ideal))) ⟨m, fun _ => 0, ρ⟩ fun r => ∀ c : Dev nD,
      r.2.mem ((c : Thread nD τ).loc main_v24_0) = featuresQ (A0 m c) (A1 m c) (A2 m c) (A3 m c) (A4 m c)
      ∧ r.2.mem ((c : Thread nD τ).loc main_v24_1)
          = enhancedQ (A0 m c) (A1 m c) (A2 m c) (A3 m c) (A4 m c) (A5 m c) (A6 m c) (A7 m c) (A8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final11 m c (hs c).1 (hs c).2),
      (h c).2.1.trans (final12 m c (hs c).1 (hs c).2), (h c).2.2⟩)
    (Value.run_blocks m ρ)

end Cert.KernelIdeal.Final

end
-- ==== Proof.RefRows.lean ====
/-
  The reference program read one row at a time: its two Gaussian layers and its two-layer head are the
  quotient-form layers of `Cert.GaussNet`, applied to the rows of the argument arrays.

  Each layer is read off the program's operations at an index `(r, j)`: the broadcasts and transposes only move
  indices, so every operand is read at an index made of the coordinates `r`, `j` and the summation variable.
-/
import proofs.«116285_j50946902065338_2_alg».proof.Proof.Gen.ReferenceIdeal.Read
import proofs.«116285_j50946902065338_2_alg».proof.Proof.GaussNet
import Idealize.ShloMosaic.Lib.ValueIdx
import Idealize.ShloMosaic.PureOps.Ideal.Laws

noncomputable section

namespace Cert.ReferenceIdeal.Rows

open Cert.ReferenceIdeal Cert.ReferenceIdeal.Read Cert.GaussNet Idealize.ShloMosaic Idealize.ShloMosaic.ValueIdx

variable (x0 : (⟨S8192x512, .f32⟩ : BufTy).Contents (Elt Ideal)) (x1 : (⟨S1024x512, .f32⟩ : BufTy).Contents (Elt Ideal))
  (x2 : (⟨S1024, .f32⟩ : BufTy).Contents (Elt Ideal)) (x3 : (⟨S512x1024, .f32⟩ : BufTy).Contents (Elt Ideal))
  (x4 : (⟨S512, .f32⟩ : BufTy).Contents (Elt Ideal)) (x5 : (⟨S2048x512, .f32⟩ : BufTy).Contents (Elt Ideal))
  (x6 : (⟨S2048, .f32⟩ : BufTy).Contents (Elt Ideal)) (x7 : (⟨S512x2048, .f32⟩ : BufTy).Contents (Elt Ideal))
  (x8 : (⟨S512, .f32⟩ : BufTy).Contents (Elt Ideal))

/-- The first Gaussian layer: entry `(r, j)` of the first hidden array is the layer applied to row `r` of the input. -/
theorem hidden1_apply (r : Fin 8192) (j : Fin 1024) :
    val_main_v21 (F := Ideal) x0 x1 x2 (ix2 r j) = layerQ (rows x0 r) (rows x1) (entries x2) j := by
  have e1 : ∀ k : Fin 512, x0 (idx_main_v1 (idx_main_v2 (idx_main_v7 (ix2 r j))) k) = x0 (ix2 r k) := fun k =>
    congrArg x0 (funext fun a => Fin.ext (by match a with | ⟨0, _⟩ => rfl | ⟨1, _⟩ => rfl))
  have e2 : ∀ k : Fin 512, x1 (idx_main_v10 (idx_main_v11 (idx_main_v12 (ix2 r j))) k) = x1 (ix2 j k) := fun k =>
    congrArg x1 (funext fun a => Fin.ext (by match a with | ⟨0, _⟩ => rfl | ⟨1, _⟩ => rfl))
  have e3 : ∀ k : Fin 512, x0 (lidx_main_v4 (ix2 r j) k) = x0 (ix2 r k) := fun k =>
    congrArg x0 (funext fun a => Fin.ext (by match a with | ⟨0, _⟩ => rfl | ⟨1, _⟩ => rfl))
  have e4 : ∀ k : Fin 512, x1 (idx_main_v3 (ridx_main_v4 (ix2 r j) k)) = x1 (ix2 j k) := fun k =>
    congrArg x1 (funext fun a => Fin.ext (by match a with | ⟨0, _⟩ => rfl | ⟨1, _⟩ => rfl))
  have e5 : x2 (idx_main_v18 (idx_main_v19 (ix2 r j))) = x2 (ix1 j) :=
    congrArg x2 (funext fun a => Fin.ext (by match a with | ⟨0, _⟩ => rfl))
  simp only [val_main_v21_apply, val_main_v20_apply, val_main_v16_apply, val_main_v15_apply, val_main_v13_apply,
    val_main_v8_apply, val_main_v7_apply, val_main_v2_apply, val_main_v1_apply, val_main_v0_apply, val_main_cst_apply,
    val_main_v6_apply, val_main_v5_apply, val_main_cst_0_apply, val_main_v4_apply, val_main_v3_apply,
    val_main_v12_apply, val_main_v11_apply, val_main_v10_apply, val_main_v9_apply, val_main_cst_1_apply,
    val_main_v14_apply, val_main_cst_2_apply, val_main_v19_apply, val_main_v18_apply, val_main_v17_apply,
    e1, e2, e3, e4, e5]
  rfl

/-- The second Gaussian layer: entry `(r, c)` of the feature array is the layer applied to row `r` of the first
    hidden array, itself the first layer of row `r` of the input. -/
theorem features_apply (r : Fin 8192) (c : Fin 512) :
    val_main_v43 (F := Ideal) x0 x1 x2 x3 x4 (ix2 r c)
      = layerQ (layerQ (rows x0 r) (rows x1) (entries x2)) (rows x3) (entries x4) c := by
  have e1 : ∀ k : Fin 1024, val_main_v21 (F := Ideal) x0 x1 x2 (idx_main_v23 (idx_main_v24 (idx_main_v29 (ix2 r c))) k)
      = val_main_v21 (F := Ideal) x0 x1 x2 (ix2 r k) := fun k =>
    congrArg (val_main_v21 (F := Ideal) x0 x1 x2) (funext fun a => Fin.ext (by match a with | ⟨0, _⟩ => rfl | ⟨1, _⟩ => rfl))
  have e2 : ∀ k : Fin 1024, val_main_v21 (F := Ideal) x0 x1 x2 (lidx_main_v26 (ix2 r c) k)
      = val_main_v21 (F := Ideal) x0 x1 x2 (ix2 r k) := fun k =>
    congrArg (val_main_v21 (F := Ideal) x0 x1 x2) (funext fun a => Fin.ext (by match a with | ⟨0, _⟩ => rfl | ⟨1, _⟩ => rfl))
  have e3 : ∀ k : Fin 1024, x3 (idx_main_v25 (ridx_main_v26 (ix2 r c) k)) = x3 (ix2 c k) := fun k =>
    congrArg x3 (funext fun a => Fin.ext (by match a with | ⟨0, _⟩ => rfl | ⟨1, _⟩ => rfl))
  have e4 : ∀ k : Fin 1024, x3 (idx_main_v32 (idx_main_v33 (idx_main_v34 (ix2 r c))) k) = x3 (ix2 c k) := fun k =>
    congrArg x3 (funext fun a => Fin.ext (by match a with | ⟨0, _⟩ => rfl | ⟨1, _⟩ => rfl))
  have e5 : x4 (idx_main_v40 (idx_main_v41 (ix2 r c))) = x4 (ix1 c) :=
    congrArg x4 (funext fun a => Fin.ext (by match a with | ⟨0, _⟩ => rfl))
  simp only [val_main_v43_apply, val_main_v42_apply, val_main_v38_apply, val_main_v37_apply, val_main_v35_apply,
    val_main_v30_apply, val_main_v29_apply, val_main_v24_apply, val_main_v23_apply, val_main_v22_apply,
    val_main_cst_3_apply, val_main_v28_apply, val_main_v27_apply, val_main_cst_4_apply, val_main_v26_apply,
    val_main_v25_apply, val_main_v34_apply, val_main_v33_apply, val_main_v32_apply, val_main_v31_apply,
    val_main_cst_5_apply, val_main_v36_apply, val_main_cst_6_apply, val_main_v41_apply, val_main_v40_apply,
    val_main_v39_apply, e1, e2, e3, e4, e5, hidden1_apply]
  rfl

/-- The head's hidden layer: entry `(r, q)` is the clamped affine image of row `r` of the feature array. -/
theorem hidden_apply (r : Fin 8192) (q : Fin 2048) :
    val_main_v50 (F := Ideal) x0 x1 x2 x3 x4 x5 x6 (ix2 r q)
      = hiddenQ (layerQ (layerQ (rows x0 r) (rows x1) (entries x2)) (rows x3) (entries x4)) (rows x5) (entries x6) q := by
  have e1 : ∀ k : Fin 512, val_main_v43 (F := Ideal) x0 x1 x2 x3 x4 (lidx_main_v45 (ix2 r q) k)
      = val_main_v43 (F := Ideal) x0 x1 x2 x3 x4 (ix2 r k) := fun k =>
    congrArg (val_main_v43 (F := Ideal) x0 x1 x2 x3 x4) (funext fun a => Fin.ext (by match a with | ⟨0, _⟩ => rfl | ⟨1, _⟩ => rfl))
  have e2 : ∀ k : Fin 512, x5 (idx_main_v44 (ridx_main_v45 (ix2 r q) k)) = x5 (ix2 q k) := fun k =>
    congrArg x5 (funext fun a => Fin.ext (by match a with | ⟨0, _⟩ => rfl | ⟨1, _⟩ => rfl))
  have e3 : x6 (idx_main_v46 (idx_main_v47 (ix2 r q))) = x6 (ix1 q) :=
    congrArg x6 (funext fun a => Fin.ext (by match a with | ⟨0, _⟩ => rfl))
  simp only [val_main_v50_apply, val_main_v49_apply, val_main_cst_7_apply, val_main_v48_apply, val_main_v45_apply,
    val_main_v44_apply, val_main_v47_apply, val_main_v46_apply, e1, e2, e3, features_apply]
  rfl

/-- The head's output layer: entry `(r, c)` of the result is the affine image of row `r` of the head's hidden array. -/
theorem enhanced_apply (r : Fin 8192) (c : Fin 512) :
    val_main_v55 (F := Ideal) x0 x1 x2 x3 x4 x5 x6 x7 x8 (ix2 r c)
      = affineQ (hiddenQ (layerQ (layerQ (rows x0 r) (rows x1) (entries x2)) (rows x3) (entries x4)) (rows x5) (entries x6))
          (rows x7) (entries x8) c := by
  have e1 : ∀ k : Fin 2048, val_main_v50 (F := Ideal) x0 x1 x2 x3 x4 x5 x6 (lidx_main_v52 (ix2 r c) k)
      = val_main_v50 (F := Ideal) x0 x1 x2 x3 x4 x5 x6 (ix2 r k) := fun k =>
    congrArg (val_main_v50 (F := Ideal) x0 x1 x2 x3 x4 x5 x6) (funext fun a => Fin.ext (by match a with | ⟨0, _⟩ => rfl | ⟨1, _⟩ => rfl))
  have e2 : ∀ k : Fin 2048, x7 (idx_main_v51 (ridx_main_v52 (ix2 r c) k)) = x7 (ix2 c k) := fun k =>
    congrArg x7 (funext fun a => Fin.ext (by match a with | ⟨0, _⟩ => rfl | ⟨1, _⟩ => rfl))
  have e3 : x8 (idx_main_v53 (idx_main_v54 (ix2 r c))) = x8 (ix1 c) :=
    congrArg x8 (funext fun a => Fin.ext (by match a with | ⟨0, _⟩ => rfl))
  simp only [val_main_v55_apply, val_main_v52_apply, val_main_v51_apply, val_main_v54_apply, val_main_v53_apply,
    e1, e2, e3, hidden_apply]
  rfl

end Cert.ReferenceIdeal.Rows

end
-- ==== Proof.RefArrays.lean ====
/-
  The reference's two results as whole arrays: its feature array and its head's output array are the whole-array
  functions `featuresQ` and `enhancedQ` of the nine argument arrays, index by index (every index is a row and a column).
-/
import proofs.«116285_j50946902065338_2_alg».proof.Proof.RefRows

noncomputable section

namespace Cert.ReferenceIdeal.Rows

open Cert.ReferenceIdeal Cert.ReferenceIdeal.Read Cert.GaussNet Idealize.ShloMosaic Idealize.ShloMosaic.ValueIdx

variable (x0 : (⟨S8192x512, .f32⟩ : BufTy).Contents (Elt Ideal)) (x1 : (⟨S1024x512, .f32⟩ : BufTy).Contents (Elt Ideal))
  (x2 : (⟨S1024, .f32⟩ : BufTy).Contents (Elt Ideal)) (x3 : (⟨S512x1024, .f32⟩ : BufTy).Contents (Elt Ideal))
  (x4 : (⟨S512, .f32⟩ : BufTy).Contents (Elt Ideal)) (x5 : (⟨S2048x512, .f32⟩ : BufTy).Contents (Elt Ideal))
  (x6 : (⟨S2048, .f32⟩ : BufTy).Contents (Elt Ideal)) (x7 : (⟨S512x2048, .f32⟩ : BufTy).Contents (Elt Ideal))
  (x8 : (⟨S512, .f32⟩ : BufTy).Contents (Elt Ideal))

/-- The reference's feature array is `featuresQ` of the arguments. -/
theorem features_eq : val_main_v43 (F := Ideal) x0 x1 x2 x3 x4 = featuresQ x0 x1 x2 x3 x4 := by
  funext i
  obtain ⟨r, c, rfl⟩ : ∃ (r : Fin 8192) (c : Fin 512), i = ix2 r c := ⟨i 0, i 1, eq_ix2 i⟩
  exact features_apply x0 x1 x2 x3 x4 r c

/-- The reference's head output array is `enhancedQ` of the arguments. -/
theorem enhanced_eq : val_main_v55 (F := Ideal) x0 x1 x2 x3 x4 x5 x6 x7 x8 = enhancedQ x0 x1 x2 x3 x4 x5 x6 x7 x8 := by
  funext i
  obtain ⟨r, c, rfl⟩ : ∃ (r : Fin 8192) (c : Fin 512), i = ix2 r c := ⟨i 0, i 1, eq_ix2 i⟩
  exact enhanced_apply x0 x1 x2 x3 x4 x5 x6 x7 x8 r c

end Cert.ReferenceIdeal.Rows

end
-- ==== Proof.PreWidths.lean ====
/-
  What the precondition says of the two width arrays.  The precondition is a conjunction of statements, each saying that a
  comparison holds at every element of one array; the last two say that every width of the first layer and every width of the second layer differs from the
  literal zero.  Read back at an element, on the extended reals, each says that the width is not `0`.
-/
import proofs.«116285_j50946902065338_2_alg».proof.Proof.Gen.Pre_finite_inputs
import Idealize.ShloMosaic.Lib.Affine
import Idealize.ShloMosaic.Lib.ReduceAll
import Idealize.ShloMosaic.Lib.ValueIdx
import Idealize.ShloMosaic.PureOps.Ideal.Laws

noncomputable section

namespace Cert.Pre_finite_inputs.Widths

open Cert.Pre_finite_inputs Cert.Pre_finite_inputs.Facts Idealize.ShloMosaic Idealize.ShloMosaic.ValueIdx

/-- A rank-0 array has one index. -/
instance : Subsingleton S_.Idx := ⟨fun _ _ => funext fun d => d.elim0⟩

/-- An extended real that compares unequal to the literal zero is not `0`. -/
theorem ne_zero_of_une {a : EReal} (h : Ideal.cmp .une a (Ideal.ofBits .f32 0x00000000#32) = 1#1) : a ≠ 0 := by
  rw [Ideal.ofBits_zero_f32] at h
  rintro rfl
  simp [Ideal.cmp] at h

variable [hF : Cert.Pre_finite_inputs.Facts]

/-- Under the precondition every width of the first layer and every width of the second layer is nonzero. -/
theorem widths_ne_zero
    (x0 : (⟨S8192x512, .f32⟩ : BufTy).Contents (Elt Ideal)) (x1 : (⟨S1024x512, .f32⟩ : BufTy).Contents (Elt Ideal))
    (x2 : (⟨S1024, .f32⟩ : BufTy).Contents (Elt Ideal)) (x3 : (⟨S512x1024, .f32⟩ : BufTy).Contents (Elt Ideal))
    (x4 : (⟨S512, .f32⟩ : BufTy).Contents (Elt Ideal)) (x5 : (⟨S2048x512, .f32⟩ : BufTy).Contents (Elt Ideal))
    (x6 : (⟨S2048, .f32⟩ : BufTy).Contents (Elt Ideal)) (x7 : (⟨S512x2048, .f32⟩ : BufTy).Contents (Elt Ideal))
    (x8 : (⟨S512, .f32⟩ : BufTy).Contents (Elt Ideal))
    (h : Cert.Pre_finite_inputs.fn (F := Ideal) x0 x1 x2 x3 x4 x5 x6 x7 x8 = (fun _ => 1#1)) :
    (∀ j : Fin 1024, x2 (ix1 j) ≠ (0 : EReal)) ∧ (∀ c : Fin 512, x4 (ix1 c) ≠ (0 : EReal)) := by
  have h0 := congrFun h ix0
  dsimp only [fn, fn_part1, fn_part2, fn_part3] at h0
  obtain ⟨h47, h50⟩ := IntOp.andi_eq_one.1 h0
  obtain ⟨-, h46⟩ := IntOp.andi_eq_one.1 h47
  exact ⟨fun j => ne_zero_of_une (Host.reduce_andi_all _ _ _ _ _ h46 (ix1 j)),
    fun c => ne_zero_of_une (Host.reduce_andi_all _ _ _ _ _ h50 (ix1 c))⟩

end Cert.Pre_finite_inputs.Widths

end
-- ==== Proof.lean ====
/-
  A network of two Gaussian layers and a two-layer relation head, computed sixteen row blocks at a time against the
  same network computed on whole arrays, on the extended reals.

  Both programs send each row `x` of the input to `h j = exp (-(d₁ j) / σ₁ j²)` with
  `d₁ j = max (‖x‖² - 2⟨x, c₁ j⟩ + ‖c₁ j‖²) 0`, then to the features `f c = exp (-(d₂ c) / σ₂ c²)` with `d₂` the same
  clamped squared distance of `h` to the second layer's centres, then to `max (⟨f, w₁ q⟩ + b₁ q) 0` and to the output
  `⟨·, w₂ c⟩ + b₂ c`.  The blocked program prepares the centres' squared norms and the reciprocals `1 / σ²` beforehand,
  transposes the centres and weights, and multiplies `0 - d` by the reciprocal where the whole-array program divides
  `-d` by `σ²`.  Changes of float format are the identity on the extended reals, a matrix product into a zero
  accumulator and a row sum are plain sums on both sides, and `(0 - d) · (1 / y) = (-d) / y` for every `y ≠ 0`,
  infinite `d` or `y` included (`Cert.GaussNet.neg_mul_recip`).  At `y = 0` the two differ (a quotient by zero is an
  infinity or the junk value, the product `0 · ∞` is `0`), which is why the precondition asks that every width be
  nonzero; finiteness of the inputs is not used.

  The modules: `GaussNet` (the rows' functions in both forms and the law), `Blocks` and `KBody` (the body's two stored
  values read at an index), `KHost` (the prepared operands read at an index), `KGrid` and `KBlocks` (the sixteen
  blocks tile the result arrays), `RefRows` and `RefArrays` (the whole-array program read at an index), `PreWidths`
  (what the precondition says of the widths).
-/
import proofs.«116285_j50946902065338_2_alg».proof.Defs
import proofs.«116285_j50946902065338_2_alg».proof.Proof.Gen.Kernel
import proofs.«116285_j50946902065338_2_alg».proof.Proof.Gen.Kernel.Skeleton
import proofs.«116285_j50946902065338_2_alg».proof.Proof.Gen.Kernel.Launch
import proofs.«116285_j50946902065338_2_alg».proof.Proof.Gen.Kernel.Points
import proofs.«116285_j50946902065338_2_alg».proof.Proof.Gen.Kernel.Frame
import proofs.«116285_j50946902065338_2_alg».proof.Proof.Gen.KernelIdeal
import proofs.«116285_j50946902065338_2_alg».proof.Proof.Gen.KernelIdeal.Skeleton
import proofs.«116285_j50946902065338_2_alg».proof.Proof.Gen.KernelIdeal.Launch
import proofs.«116285_j50946902065338_2_alg».proof.Proof.Gen.KernelIdeal.Points
import proofs.«116285_j50946902065338_2_alg».proof.Proof.Gen.KernelIdeal.Frame
import proofs.«116285_j50946902065338_2_alg».proof.Proof.Gen.ReferenceIdeal
import proofs.«116285_j50946902065338_2_alg».proof.Proof.Gen.Pre_finite_inputs
import proofs.«116285_j50946902065338_2_alg».proof.Proof.Gen.KernelIdeal.Value
import proofs.«116285_j50946902065338_2_alg».proof.Proof.Gen.ReferenceIdeal.Run
import proofs.«116285_j50946902065338_2_alg».proof.Proof.Gen.ReferenceIdeal.Read
import proofs.«116285_j50946902065338_2_alg».proof.Proof.KBlocks
import proofs.«116285_j50946902065338_2_alg».proof.Proof.RefArrays
import proofs.«116285_j50946902065338_2_alg».proof.Proof.PreWidths
import Idealize.ShloMosaic.Adequacy
import Idealize.ShloMosaic.Init

noncomputable section

namespace Cert.Proof

open Idealize.ShloMosaic Idealize.SL.Sem Cert.GaussNet

/-- The word-level program runs, faults nowhere and leaves its arguments as they were. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The whole-array program's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Narrowing to the 16-bit format and widening back is the identity on the extended reals, at both shapes where the
    blocked program squares what it had narrowed for the matrix product. -/
theorem preserves : Cert.preserves_Kernel_KernelIdeal :=
  ⟨IdealRules.truncf_extf.statement _ .f32 .bf16, IdealRules.truncf_extf.statement _ .f32 .bf16⟩

/-- From memories agreeing on the nine arguments, with every width nonzero, both programs end with the feature array
    and the head's output array of the arguments: the blocked program by its sixteen blocks, the whole-array program
    index by index. -/
theorem algebraic : Cert.algebraic_KernelIdeal_ReferenceIdeal := by
  intro m ρ m' ρ' hpre hagree
  have hs : ∀ c : Dev Cert.KernelIdeal.nD,
      (∀ j : Fin 1024, entries (Cert.KernelIdeal.Final.A2 m c) j ≠ 0)
        ∧ (∀ x : Fin 512, entries (Cert.KernelIdeal.Final.A4 m c) x ≠ 0) :=
    fun c => Cert.Pre_finite_inputs.Widths.widths_ne_zero _ _ _ _ _ _ _ _ _ (hpre c)
  refine ⟨_, _, Cert.KernelIdeal.Final.run m ρ hs, ?_⟩
  refine (θ_run Cert.ReferenceIdeal.defs _ _).mono (fun r h c => ?_) (Cert.ReferenceIdeal.Value.run (F := Ideal) m' ρ')
  obtain ⟨h43, h55, hargs⟩ := h c
  obtain ⟨a0, a1, a2, a3, a4, a5, a6, a7, a8⟩ := hagree c
  refine ⟨?_, ?_, hargs⟩
  · rw [h43, Cert.ReferenceIdeal.Read.val_main_v43_eq, Cert.ReferenceIdeal.Rows.features_eq, a0, a1, a2, a3, a4]
  · rw [h55, Cert.ReferenceIdeal.Read.val_main_v55_eq, Cert.ReferenceIdeal.Rows.enhanced_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
